-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : IVec S8192x8192 32) (main_arg2 : FVec F S128x128 .f32) (main_arg3 : FVec F S128x1 .f32) (main_arg4 : FVec F S128x1 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S256x4096 : Shape := ⟨2, ![256, 4096]⟩
abbrev S256x128 : Shape := ⟨2, ![256, 128]⟩
abbrev S8192x256 : Shape := ⟨2, ![8192, 256]⟩
abbrev S8192x1 : Shape := ⟨2, ![8192, 1]⟩
abbrev S1x8192 : Shape := ⟨2, ![1, 8192]⟩
abbrev S256x1 : Shape := ⟨2, ![256, 1]⟩
abbrev S1x4096 : Shape := ⟨2, ![1, 4096]⟩
abbrev S4096x256 : Shape := ⟨2, ![4096, 256]⟩
abbrev S256x256 : Shape := ⟨2, ![256, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S8192x128, .f32⟩
  | .local _ .vmem, ⟨0, _⟩ => ⟨S256x4096, .i32⟩
  | .local _ .vmem, ⟨1, _⟩ => ⟨S256x4096, .i32⟩
  | .local _ .vmem, ⟨2, _⟩ => ⟨S256x4096, .i32⟩
  | .local _ .vmem, ⟨3, _⟩ => ⟨S256x4096, .i32⟩
  | .local _ .vmem, ⟨4, _⟩ => ⟨S8192x128, .f32⟩
  | .local _ .vmem, ⟨5, _⟩ => ⟨S128x128, .f32⟩
  | .local _ .vmem, ⟨6, _⟩ => ⟨S128x1, .f32⟩
  | .local _ .vmem, ⟨7, _⟩ => ⟨S1x128, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S8192x256, .bf16⟩
  | .local _ .vmem, ⟨12, _⟩ => ⟨S8192x1, .bf16⟩
  | .local _ .vmem, ⟨13, _⟩ => ⟨S8192x1, .bf16⟩
  | .local _ .vmem, ⟨14, _⟩ => ⟨S1x8192, .bf16⟩
  | .local _ .vmem, ⟨15, _⟩ => ⟨S1x8192, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg0 : BitVec 32 := BitVec.ofNat 32 (i 0).val
  let c1_i32 : BitVec 32 := 1#32
  let v6 : BitVec 32 := Scalar.subi arg0 c1_i32
  let c256_i32 : BitVec 32 := 256#32
  let v7 : BitVec 32 := Scalar.muli v6 c256_i32
  let v8 : Index := Scalar.indexCast v7
  let c0 : Index := 0#32
  ![v8.toNat, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x1_S1x128_1_0 : S128x1.Transposes [1, 0] S1x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192x256_S8192x128_0_0 : ∀ a, (![0, 0] : Fin 2 → Nat) a + S8192x128.size a ≤ S8192x256.size a
  shapeCasts_S8192x128_S8192x128 : S8192x128.ShapeCasts S8192x128
  packedbf16_S8192x256_S8192x128_0_0 : (Rect.unit (s := S8192x256) ![0, 0] S8192x128.size inb_S8192x256_S8192x128_0_0).PackedRows (EltTy.packing .bf16)
  iota_S8192x128_d1_w32 : S8192x128.Iotas .tc 32 [1]
  inb_S8192x256_S8192x128_0_128 : ∀ a, (![0, 128] : Fin 2 → Nat) a + S8192x128.size a ≤ S8192x256.size a
  packedbf16_S8192x256_S8192x128_0_128 : (Rect.unit (s := S8192x256) ![0, 128] S8192x128.size inb_S8192x256_S8192x128_0_128).PackedRows (EltTy.packing .bf16)
  inb_S128x1_S128x1_0_0 : ∀ a, (![0, 0] : Fin 2 → Nat) a + S128x1.size a ≤ S128x1.size a
  h_S128x1 : 0 < S128x1.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  packedbf16_S8192x1_S8192x1_0_0 : (Rect.unit (s := S8192x1) ![0, 0] S8192x1.size inb_S8192x1_S8192x1_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  packedbf16_S1x8192_S1x8192_0_0 : (Rect.unit (s := S1x8192) ![0, 0] S1x8192.size inb_S1x8192_S1x8192_0_0).PackedRows (EltTy.packing .bf16)
  h_S256x1 : 0 < S256x1.numel
  slices_S1x8192_o0_0_S1x4096 : S1x8192.Slices ![0, 0] S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S8192x256_S4096x256_0_0 : ∀ a, (![0, 0] : Fin 2 → Nat) a + S4096x256.size a ≤ S8192x256.size a
  h_S4096x256 : 0 < S4096x256.numel
  slices_S1x8192_o0_4096_S1x4096 : S1x8192.Slices ![0, 4096] S1x4096
  inb_S8192x256_S4096x256_4096_0 : ∀ a, (![4096, 0] : Fin 2 → Nat) a + S4096x256.size a ≤ S8192x256.size a
  slices_S256x256_o0_0_S256x128 : S256x256.Slices ![0, 0] S256x128
  slices_S256x256_o0_128_S256x1 : S256x256.Slices ![0, 128] S256x1
  broadcasts_S256x1_S256x128 : S256x1.Broadcasts S256x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1x128_S8192x128_S1x8192_1_1_0_0_n_n_wf : DotDims.WF S1x128 S8192x128 S1x8192 [1] [1] [0] [0] [] []
  dot_S256x4096_S4096x256_S256x256_1_0_0_1_n_n_wf : DotDims.WF S256x4096 S4096x256 S256x256 [1] [0] [0] [1] [] []
  hrank0 : 0 < grid0.rank
  k0_off1_inb : ∀ i : grid0.Coords, ∀ (k0_h2 : k0_cond2 i = 1#1), ∀ a, (k0_off1 i) a + S256x1.size a ≤ S8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .i32 = 32 ∨ (Rect.block (s := S8192x8192) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x8192.size a
  hwx0_1 : ∀ i : grid0.Coords, EltTy.bits .i32 = 32 ∨ (Rect.block (s := S8192x8192) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S8192x128.size a
  hwx0_7 : ∀ i : grid0.Coords, EltTy.bits .f32 = 32 ∨ (Rect.block (s := S8192x128) S256x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x128, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x128, .f32⟩
  | .hbm, ⟨44, _⟩ => ⟨S1x128, .f32⟩
  | .hbm, ⟨45, _⟩ => ⟨S8192x128, .f32⟩
  | .hbm, ⟨46, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KBBase.lean ====
/-
  The run of the fused graph-attention program up to and around its one pipelined region: what the region finds in
  each buffer when it is entered (two host lines before it transpose one attention vector and reshape the bias),
  each window's block of its array at a grid point, the two conditions the body branches on as functions of the
  grid point (the first point projects the features into five scratch arrays; every later point produces one block
  of 256 output rows), where the output window is idle, and the names of the staging and scratch buffers.
-/
import proofs.«177507_g11553462026822_cont_9to1c4b_334_26_alg».proof.Proof.Gen.Kernel.Launch
import proofs.«177507_g11553462026822_cont_9to1c4b_334_26_alg».proof.Proof.Gen.Kernel.Skeleton
import proofs.«177507_g11553462026822_cont_9to1c4b_334_26_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: after the two host lines before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The first branch (the projection) is taken where the grid coordinate is zero. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The second branch (a block of output rows) is taken where it is positive. -/
abbrev cond2 (i : grid0.Coords) : Prop := k0_cond2 i = 1#1
theorem hcond2 : ∀ t : Fin cfg0.N, cond2 (grid0.coords t) ↔ t.val ≠ 0 :=
  (by decide +kernel : ∀ t : Fin grid0.N, cond2 (grid0.coords t) ↔ t.val ≠ 0)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
/-- At the first point the body stores nothing into the output window, and its block is not written back there. -/
theorem idle7 : ∀ t : Fin cfg0.N, t.val = 0 → cfg0.idle 7 (grid0.coords t) = true := by decide +kernel
theorem noFlush7 : ∀ t : Fin cfg0.N, t.val = 0 → (cfg0.win 7).flush t = false := by decide +kernel
/-- At every later point it stores the whole block, which is written back. -/
theorem live7 : ∀ t : Fin cfg0.N, t.val ≠ 0 → cfg0.idle 7 (grid0.coords t) = false := by decide +kernel
theorem flush7 : ∀ t : Fin cfg0.N, t.val ≠ 0 → (cfg0.win 7).flush t = true := by decide +kernel

/-! ## The staging and scratch buffers -/

abbrev ms0 (t : Fin cfg0.N) : Memref sig .tc .vmem S256x4096 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev scM0 : Memref sig .tc .vmem S8192x256 .bf16 := Memref.whole cc0_scratch0
abbrev VS0 : View sig .tc .vmem S8192x256 .bf16 := (scM0 : Memref sig .tc .vmem S8192x256 .bf16).view
abbrev scM1 : Memref sig .tc .vmem S8192x1 .bf16 := Memref.whole cc0_scratch1
abbrev VS1 : View sig .tc .vmem S8192x1 .bf16 := (scM1 : Memref sig .tc .vmem S8192x1 .bf16).view
abbrev scM2 : Memref sig .tc .vmem S8192x1 .bf16 := Memref.whole cc0_scratch2
abbrev VS2 : View sig .tc .vmem S8192x1 .bf16 := (scM2 : Memref sig .tc .vmem S8192x1 .bf16).view
abbrev scM3 : Memref sig .tc .vmem S1x8192 .bf16 := Memref.whole cc0_scratch3
abbrev VS3 : View sig .tc .vmem S1x8192 .bf16 := (scM3 : Memref sig .tc .vmem S1x8192 .bf16).view
abbrev scM4 : Memref sig .tc .vmem S1x8192 .bf16 := Memref.whole cc0_scratch4
abbrev VS4 : View sig .tc .vmem S1x8192 .bf16 := (scM4 : Memref sig .tc .vmem S1x8192 .bf16).view
/-- One staging buffer of the output window, through which its contents are stated. -/
abbrev VO7 : View sig .tc .vmem S256x128 .f32 := (Memref.whole cc0_stg7_0 : Memref sig .tc .vmem S256x128 .f32).view

/-- The core's scoped buffers outside the staging buffers are the five scratch arrays, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)
          ∗ (∃ d, owns (c : Thread nD τ) scM3 fullShare d) ∗ (∃ d, owns (c : Thread nD τ) scM4 fullShare d)) := by
  rw [scopedRest0_eq]; simp only [scM0, scM1, scM2, scM3, scM4, owns_whole]; try rfl

end Cert.Kernel.Fr

end
-- ==== Proof.KBRunP.lean ====
/-
  The body at the first grid point: the projection. On whole staging buffers holding the feature block, the
  projection matrix, the source attention vector and the transposed target attention vector, and scratch arrays
  holding anything, it runs to the end leaving the inputs and the (untouched) output buffer as they were and each
  scratch array with the pieces it stored: the projected features beside a column of ones, the two per-node
  exponentials of the source scores (a column each) and the two of the target scores (a row each).
-/
import proofs.«177507_g11553462026822_cont_9to1c4b_334_26_alg».proof.Proof.KBBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point stores into the five scratch arrays (last first), with the proof that the body runs
    to its continuation holding them. -/
noncomputable def kernelRunP (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc1 : cond1 i) (hc2 : ¬cond2 i)
    (x2 : Vec F S8192x128 .f32) (x3 : Vec F S128x128 .f32) (x4 : Vec F S128x1 .f32) (x5 : Vec F S1x128 .f32) :
    Σ' (LS0 : List (View.Piece (Elt F) S8192x256 .bf16)) (LS1 : List (View.Piece (Elt F) S8192x1 .bf16)) (LS2 : List (View.Piece (Elt F) S8192x1 .bf16)) (LS3 : List (View.Piece (Elt F) S1x8192 .bf16)), { LS4 : List (View.Piece (Elt F) S1x8192 .bf16) //
      ∀ (x0 x1 : Vec F S256x4096 .i32) (x6 : Vec F S1x128 .f32) (xi7 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare xi7
            ∗ (∃ d, owns (c : Thread nD τ) arg9 fullShare d) ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)
                ∗ (∃ f, arg13.view.loc (c : Thread nD τ) ↦[arg13.view.set]{fullShare} arg13.view.writes (Elt F) f LS4)) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x0 x1 x6 xi7 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.Kernel.Fr

end
-- ==== Proof.KBRunR.lean ====
/-
  The body at a later grid point: one block of 256 output rows. On whole staging buffers holding the two halves of
  the adjacency rows and the bias, the scratch arrays holding what the first point left, and the output buffer
  holding anything, it runs to the end leaving inputs and scratch as they were and the output buffer with the one
  piece it stored: the normalised, biased attention-weighted sum of the projected features.
-/
import proofs.«177507_g11553462026822_cont_9to1c4b_334_26_alg».proof.Proof.KBBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The piece a later point stores into the output buffer, with the proof that the body runs to its continuation
    holding it. -/
noncomputable def kernelRunR (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc1 : ¬cond1 i) (hc2 : cond2 i)
    (x0 x1 : Vec F S256x4096 .i32) (x6 : Vec F S1x128 .f32)
    (xs0 : Vec F S8192x256 .bf16) (xs1 xs2 : Vec F S8192x1 .bf16) (xs3 xs4 : Vec F S1x8192 .bf16) :
    { L7 : List (View.Piece (Elt F) S256x128 .f32) //
      ∀ (x2 : Vec F S8192x128 .f32) (x3 : Vec F S128x128 .f32) (x4 : Vec F S128x1 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1 ∗ owns (c : Thread nD τ) arg11 fullShare xs2
                ∗ owns (c : Thread nD τ) arg12 fullShare xs3 ∗ owns (c : Thread nD τ) arg13 fullShare xs4) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun x2 x3 x4 x5 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩,
      ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3; obtain rfl := harg13.eq_unread hfs4
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

end Cert.Kernel.Fr

end
-- ==== Proof.KBData.lean ====
/-
  The proof data of the pipelined region. Scratch: the five arrays hold, from the end of the first grid point on,
  the pieces that point stored (they are never stored into again). Output window: at a later point the one piece
  that point stores, computed from its two adjacency blocks, the bias and the scratch; at the first point the body
  leaves it untouched. Inputs: each window's buffer holds its block of the array. The adjacency matrix is read
  through two windows (its left and its right half of the columns), each holding half of the share of its array.
-/
import proofs.«177507_g11553462026822_cont_9to1c4b_334_26_alg».proof.Proof.KBRunP
import proofs.«177507_g11553462026822_cont_9to1c4b_334_26_alg».proof.Proof.KBRunR

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩
theorem hc1_0 : cond1 (grid0.coords t0) := (hcond1 t0).mpr rfl
theorem hc2_0 : ¬cond2 (grid0.coords t0) := fun h => (hcond2 t0).mp h rfl

/-- The first point's pieces for scratch array 0 tile it, so they cover it. -/
theorem scover0 (c : Dev nD) (y : S8192x256.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1 S8192x128.size (by sl_kernel_rfl) y

/-- What the first point leaves in scratch array 0: its pieces read back. -/
def S0 (c : Dev nD) : Vec F S8192x256 .bf16 :=
  VS0.read (Elt F) (VS0.writes (Elt F) VS0.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1)

/-- The first point's pieces for scratch array 1 tile it, so they cover it. -/
theorem scover1 (c : Dev nD) (y : S8192x1.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1 S8192x1.size (by sl_kernel_rfl) y

/-- What the first point leaves in scratch array 1: its pieces read back. -/
def S1 (c : Dev nD) : Vec F S8192x1 .bf16 :=
  VS1.read (Elt F) (VS1.writes (Elt F) VS1.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1)

/-- The first point's pieces for scratch array 2 tile it, so they cover it. -/
theorem scover2 (c : Dev nD) (y : S8192x1.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1 S8192x1.size (by sl_kernel_rfl) y

/-- What the first point leaves in scratch array 2: its pieces read back. -/
def S2 (c : Dev nD) : Vec F S8192x1 .bf16 :=
  VS2.read (Elt F) (VS2.writes (Elt F) VS2.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1)

/-- The first point's pieces for scratch array 3 tile it, so they cover it. -/
theorem scover3 (c : Dev nD) (y : S1x8192.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1 S1x8192.size (by sl_kernel_rfl) y

/-- What the first point leaves in scratch array 3: its pieces read back. -/
def S3 (c : Dev nD) : Vec F S1x8192 .bf16 :=
  VS3.read (Elt F) (VS3.writes (Elt F) VS3.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1)

/-- The first point's pieces for scratch array 4 tile it, so they cover it. -/
theorem scover4 (c : Dev nD) (y : S1x8192.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1 S1x8192.size (by sl_kernel_rfl) y

/-- What the first point leaves in scratch array 4: its pieces read back. -/
def S4 (c : Dev nD) : Vec F S1x8192 .bf16 :=
  VS4.read (Elt F) (VS4.writes (Elt F) VS4.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1)

/-- A later point's piece for the output window tiles its block, so it covers it. -/
theorem cover7 (c : Dev nD) (t : Fin cfg0.N) (hz : t.val ≠ 0) (y : S256x128.Idx) : ∃ pc ∈ (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1, y ∈ pc.1.set :=
  View.cover_of_tiledL (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1 S256x128.size (by sl_kernel_rfl) y

/-- What the body leaves in the output window's buffer at point `t`: at a later point its piece read back; at the
    first point nothing is stored (a placeholder nothing consults: the window is idle there and not written back). -/
def out7 (c : Dev nD) (t : Fin cfg0.N) : Vec F S256x128 .f32 :=
  if hz : t.val = 0 then VO7.read (Elt F) VO7.junk
  else VO7.read (Elt F) (VO7.writes (Elt F) VO7.junk (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1)

theorem out7_pos (c : Dev nD) (t : Fin cfg0.N) (hz : t.val ≠ 0) :
    out7 m c t = VO7.read (Elt F) (VO7.writes (Elt F) VO7.junk (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1) := dif_neg hz

/-- The region invariant before position `n`: before the first point the scratch arrays hold anything; afterwards what
    the first point left. -/
def Phi (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (S0 m c) ∗ owns (c : Thread nD τ) scM1 fullShare (S1 m c) ∗ owns (c : Thread nD τ) scM2 fullShare (S2 m c)
      ∗ owns (c : Thread nD τ) scM3 fullShare (S3 m c) ∗ owns (c : Thread nD τ) scM4 fullShare (S4 m c))

theorem Phi_zero (c : Dev nD) (n : ℕ) (hz : n = 0) : Phi m c n = Pipeline.scopedRest (Ix := Unit) (Name := ℕ) (U := UR sig nD τ) (Lvl := ℕ) (Val := Elt F) spec0 c := by
  subst hz; rfl
theorem Phi_pos (c : Dev nD) (n : ℕ) (hz : n ≠ 0) :
    Phi m c n = iprop(owns (c : Thread nD τ) scM0 fullShare (S0 m c) ∗ owns (c : Thread nD τ) scM1 fullShare (S1 m c) ∗ owns (c : Thread nD τ) scM2 fullShare (S2 m c)
      ∗ owns (c : Thread nD τ) scM3 fullShare (S3 m c) ∗ owns (c : Thread nD τ) scM4 fullShare (S4 m c)) := by
  cases n with
  | zero => exact absurd rfl hz
  | succ n => rfl

/-- The proof data of the one pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ t := Phi m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

end Cert.Kernel.Fr

end
-- ==== Proof.KBBody.lean ====
/-
  The body obligation of the pipelined region, at every grid point: handed the invariant and every window's current
  staging buffer, the body runs and hands back the next invariant and the buffers at what the proof data names.
  At the first point the scratch arrays go from anything to the stored pieces and the output buffer comes back
  untouched; at a later point the scratch arrays are only read and the output buffer receives its piece.
-/
import proofs.«177507_g11553462026822_cont_9to1c4b_334_26_alg».proof.Proof.KBData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [Phi_castSucc, Phi_succ, Phi_pos m c (t.val + 1) (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases hz : t.val = 0
  · -- the first point: the projection
    rw [Dat.leavesExact_idle (dats m 0 c) 7 t (idle7 t hz) (noFlush7 t hz)]
    rw [Phi_zero m c _ hz, scoped_eq]
    obtain rfl : t = t0 := Fin.ext hz
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.2 (iblk m c 0 t0) (iblk m c 1 t0) (iblk m c 6 t0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%es0, HS0⟩, ⟨%es1, HS1⟩, ⟨%es2, HS2⟩, ⟨%es3, HS3⟩, ⟨%es4, HS4⟩⟩
    isplitl [HS0 HS1 HS2 HS3 HS4]
    · isplitl [HS0]
      · unfold owns; iexists _; isplitr
        swap; · iexact HS0
        ipureintro; exact View.read_writes_of_cover _ _ _ _ _ (scover0 m c)
      isplitl [HS1]
      · unfold owns; iexists _; isplitr
        swap; · iexact HS1
        ipureintro; exact View.read_writes_of_cover _ _ _ _ _ (scover1 m c)
      isplitl [HS2]
      · unfold owns; iexists _; isplitr
        swap; · iexact HS2
        ipureintro; exact View.read_writes_of_cover _ _ _ _ _ (scover2 m c)
      isplitl [HS3]
      · unfold owns; iexists _; isplitr
        swap; · iexact HS3
        ipureintro; exact View.read_writes_of_cover _ _ _ _ _ (scover3 m c)
      · unfold owns; iexists _; isplitr
        swap; · iexact HS4
        ipureintro; exact View.read_writes_of_cover _ _ _ _ _ (scover4 m c)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- a later point: one block of output rows
    rw [show (dats m 0 c).leavesExact 7 t = owns (c : Thread nD τ) (ms7 t) fullShare ((dats m 0 c).after 7 t) from by
      unfold Dat.leavesExact; rw [live7 t hz], after7]
    rw [Phi_pos m c _ hz, out7_pos m c t hz]
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).2 (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4]
    · isplitl [HS0]; · iexact HS0
      isplitl [HS1]; · iexact HS1
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7 m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KBSplit.lean ====
/-
  How the region takes hold of its arrays. The adjacency matrix is handed to the region through two windows (the
  left and the right half of its columns): its buffer, whole at the full share, is divided into two half shares,
  one per window; every other array goes to its one window at the full share.
-/
import proofs.«177507_g11553462026822_cont_9to1c4b_334_26_alg».proof.Proof.KBData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- A window's array, whole, at the window's share and the region-entry contents. -/
theorem arr_eq (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The distinct buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_v0) ↦{fullShare} V m c main_v0)) := by
  unfold Pipeline.arrBufs
  exact bigSep_eq_bigSepL_of_eq [main_arg1, main_arg0, main_arg2, main_arg3, main_call0_v0, main_call0_v1, main_v0] (by decide) (by decide) _

/-- The buffers behind the windows' arrays, whole at the full share, make the windows' arrays at their shares. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [arrBufs_eq, bigSep_W0]
  rw [arr_eq m c 0, arr_eq m c 1, arr_eq m c 2, arr_eq m c 3, arr_eq m c 4, arr_eq m c 5, arr_eq m c 6, arr_eq m c 7]
  rw [share0, share1, share2, share3, share4, share5, share6, share7]
  iintro ⟨Hadj, Hh, HW, HWl, HWr, Hb, Ho⟩
  ihave Hs := ((pointsTo_share (PosShare.mem_left_op_right fullShare)).1) $$ Hadj
  icases Hs with ⟨Hl, Hr⟩
  isplitl [Hl]; · iexact Hl
  isplitl [Hr]; · iexact Hr
  isplitl [Hh]; · iexact Hh
  isplitl [HW]; · iexact HW
  isplitl [HWl]; · iexact HWl
  isplitl [HWr]; · iexact HWr
  isplitl [Hb]; · iexact Hb
  iexact Ho

end Cert.Kernel.Fr

end
-- ==== Proof.KBLaunch.lean ====
/-
  The run of the whole program: every weakly fair execution terminates, nothing faults, every array of the region
  ends at what the proof data computes (an input as the region found it; the output with each grid point's block
  written back in turn) and every other buffer that outlives the region as the region found it. Read at the six
  argument arrays this is the frame: they end as launched.
-/
import proofs.«177507_g11553462026822_cont_9to1c4b_334_26_alg».proof.Proof.KBBody
import proofs.«177507_g11553462026822_cont_9to1c4b_334_26_alg».proof.Proof.KBSplit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The run's post. -/
def QC : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Phi m c 0 from rfl, Phi_zero m c 0 rfl]
      iintro ⟨-, H⟩; iexact H)
    (hout := fun c => by
      rw [show (dats m 0 c).Φ (Fin.last cfg0.N) = Phi m c cfg0.N from rfl, Phi_pos m c cfg0.N (by decide), scoped_eq]
      iintro ⟨H0, H1, H2, H3, H4⟩
      isplitr; · iempintro
      isplitl [H0]; · iexists _; iexact H0
      isplitl [H1]; · iexists _; iexact H1
      isplitl [H2]; · iexists _; iexact H2
      isplitl [H3]; · iexists _; iexact H3
      iexists _; iexact H4)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Fr.run_main' depends on axioms: [propext, Classical.choice, Quot.sound] -/
#guard_msgs in #print axioms run_main

/-- The argument arrays end as launched: four are inputs of the region (the features, the adjacency matrix, the
    projection, the source attention vector), read through their windows; the target attention vector and the bias
    reach the region only through the two host lines before it and bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Fr

end
-- ==== Proof.KIBase.lean ====
/-
  The run of the fused graph-attention program up to and around its one pipelined region: what the region finds in
  each buffer when it is entered (two host lines before it transpose one attention vector and reshape the bias),
  each window's block of its array at a grid point, the two conditions the body branches on as functions of the
  grid point (the first point projects the features into five scratch arrays; every later point produces one block
  of 256 output rows), where the output window is idle, and the names of the staging and scratch buffers.
-/
import proofs.«177507_g11553462026822_cont_9to1c4b_334_26_alg».proof.Proof.Gen.KernelIdeal.Launch
import proofs.«177507_g11553462026822_cont_9to1c4b_334_26_alg».proof.Proof.Gen.KernelIdeal.Skeleton
import proofs.«177507_g11553462026822_cont_9to1c4b_334_26_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: after the two host lines before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The first branch (the projection) is taken where the grid coordinate is zero. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The second branch (a block of output rows) is taken where it is positive. -/
abbrev cond2 (i : grid0.Coords) : Prop := k0_cond2 i = 1#1
theorem hcond2 : ∀ t : Fin cfg0.N, cond2 (grid0.coords t) ↔ t.val ≠ 0 :=
  (by decide +kernel : ∀ t : Fin grid0.N, cond2 (grid0.coords t) ↔ t.val ≠ 0)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
/-- At the first point the body stores nothing into the output window, and its block is not written back there. -/
theorem idle7 : ∀ t : Fin cfg0.N, t.val = 0 → cfg0.idle 7 (grid0.coords t) = true := by decide +kernel
theorem noFlush7 : ∀ t : Fin cfg0.N, t.val = 0 → (cfg0.win 7).flush t = false := by decide +kernel
/-- At every later point it stores the whole block, which is written back. -/
theorem live7 : ∀ t : Fin cfg0.N, t.val ≠ 0 → cfg0.idle 7 (grid0.coords t) = false := by decide +kernel
theorem flush7 : ∀ t : Fin cfg0.N, t.val ≠ 0 → (cfg0.win 7).flush t = true := by decide +kernel

/-! ## The staging and scratch buffers -/

abbrev ms0 (t : Fin cfg0.N) : Memref sig .tc .vmem S256x4096 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev scM0 : Memref sig .tc .vmem S8192x256 .bf16 := Memref.whole cc0_scratch0
abbrev VS0 : View sig .tc .vmem S8192x256 .bf16 := (scM0 : Memref sig .tc .vmem S8192x256 .bf16).view
abbrev scM1 : Memref sig .tc .vmem S8192x1 .bf16 := Memref.whole cc0_scratch1
abbrev VS1 : View sig .tc .vmem S8192x1 .bf16 := (scM1 : Memref sig .tc .vmem S8192x1 .bf16).view
abbrev scM2 : Memref sig .tc .vmem S8192x1 .bf16 := Memref.whole cc0_scratch2
abbrev VS2 : View sig .tc .vmem S8192x1 .bf16 := (scM2 : Memref sig .tc .vmem S8192x1 .bf16).view
abbrev scM3 : Memref sig .tc .vmem S1x8192 .bf16 := Memref.whole cc0_scratch3
abbrev VS3 : View sig .tc .vmem S1x8192 .bf16 := (scM3 : Memref sig .tc .vmem S1x8192 .bf16).view
abbrev scM4 : Memref sig .tc .vmem S1x8192 .bf16 := Memref.whole cc0_scratch4
abbrev VS4 : View sig .tc .vmem S1x8192 .bf16 := (scM4 : Memref sig .tc .vmem S1x8192 .bf16).view
/-- One staging buffer of the output window, through which its contents are stated. -/
abbrev VO7 : View sig .tc .vmem S256x128 .f32 := (Memref.whole cc0_stg7_0 : Memref sig .tc .vmem S256x128 .f32).view

/-- The core's scoped buffers outside the staging buffers are the five scratch arrays, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)
          ∗ (∃ d, owns (c : Thread nD τ) scM3 fullShare d) ∗ (∃ d, owns (c : Thread nD τ) scM4 fullShare d)) := by
  rw [scopedRest0_eq]; simp only [scM0, scM1, scM2, scM3, scM4, owns_whole]; try rfl

end Cert.KernelIdeal.Fr

end
-- ==== Proof.KIRunP.lean ====
/-
  The body at the first grid point: the projection. On whole staging buffers holding the feature block, the
  projection matrix, the source attention vector and the transposed target attention vector, and scratch arrays
  holding anything, it runs to the end leaving the inputs and the (untouched) output buffer as they were and each
  scratch array with the pieces it stored: the projected features beside a column of ones, the two per-node
  exponentials of the source scores (a column each) and the two of the target scores (a row each).
-/
import proofs.«177507_g11553462026822_cont_9to1c4b_334_26_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point stores into the five scratch arrays (last first), with the proof that the body runs
    to its continuation holding them. -/
noncomputable def kernelRunP (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc1 : cond1 i) (hc2 : ¬cond2 i)
    (x2 : Vec F S8192x128 .f32) (x3 : Vec F S128x128 .f32) (x4 : Vec F S128x1 .f32) (x5 : Vec F S1x128 .f32) :
    Σ' (LS0 : List (View.Piece (Elt F) S8192x256 .bf16)) (LS1 : List (View.Piece (Elt F) S8192x1 .bf16)) (LS2 : List (View.Piece (Elt F) S8192x1 .bf16)) (LS3 : List (View.Piece (Elt F) S1x8192 .bf16)), { LS4 : List (View.Piece (Elt F) S1x8192 .bf16) //
      ∀ (x0 x1 : Vec F S256x4096 .i32) (x6 : Vec F S1x128 .f32) (xi7 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare xi7
            ∗ (∃ d, owns (c : Thread nD τ) arg9 fullShare d) ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)
                ∗ (∃ f, arg13.view.loc (c : Thread nD τ) ↦[arg13.view.set]{fullShare} arg13.view.writes (Elt F) f LS4)) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x0 x1 x6 xi7 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Fr

end
-- ==== Proof.KIRunR.lean ====
/-
  The body at a later grid point: one block of 256 output rows. On whole staging buffers holding the two halves of
  the adjacency rows and the bias, the scratch arrays holding what the first point left, and the output buffer
  holding anything, it runs to the end leaving inputs and scratch as they were and the output buffer with the one
  piece it stored: the normalised, biased attention-weighted sum of the projected features.
-/
import proofs.«177507_g11553462026822_cont_9to1c4b_334_26_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The piece a later point stores into the output buffer, with the proof that the body runs to its continuation
    holding it. -/
noncomputable def kernelRunR (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc1 : ¬cond1 i) (hc2 : cond2 i)
    (x0 x1 : Vec F S256x4096 .i32) (x6 : Vec F S1x128 .f32)
    (xs0 : Vec F S8192x256 .bf16) (xs1 xs2 : Vec F S8192x1 .bf16) (xs3 xs4 : Vec F S1x8192 .bf16) :
    { L7 : List (View.Piece (Elt F) S256x128 .f32) //
      ∀ (x2 : Vec F S8192x128 .f32) (x3 : Vec F S128x128 .f32) (x4 : Vec F S128x1 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1 ∗ owns (c : Thread nD τ) arg11 fullShare xs2
                ∗ owns (c : Thread nD τ) arg12 fullShare xs3 ∗ owns (c : Thread nD τ) arg13 fullShare xs4) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun x2 x3 x4 x5 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩,
      ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3; obtain rfl := harg13.eq_unread hfs4
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

end Cert.KernelIdeal.Fr

end
-- ==== Proof.KIData.lean ====
/-
  The proof data of the pipelined region. Scratch: the five arrays hold, from the end of the first grid point on,
  the pieces that point stored (they are never stored into again). Output window: at a later point the one piece
  that point stores, computed from its two adjacency blocks, the bias and the scratch; at the first point the body
  leaves it untouched. Inputs: each window's buffer holds its block of the array. The adjacency matrix is read
  through two windows (its left and its right half of the columns), each holding half of the share of its array.
-/
import proofs.«177507_g11553462026822_cont_9to1c4b_334_26_alg».proof.Proof.KIRunP
import proofs.«177507_g11553462026822_cont_9to1c4b_334_26_alg».proof.Proof.KIRunR

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩
theorem hc1_0 : cond1 (grid0.coords t0) := (hcond1 t0).mpr rfl
theorem hc2_0 : ¬cond2 (grid0.coords t0) := fun h => (hcond2 t0).mp h rfl

/-- The first point's pieces for scratch array 0 tile it, so they cover it. -/
theorem scover0 (c : Dev nD) (y : S8192x256.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1 S8192x128.size (by sl_kernel_rfl) y

/-- What the first point leaves in scratch array 0: its pieces read back. -/
def S0 (c : Dev nD) : Vec F S8192x256 .bf16 :=
  VS0.read (Elt F) (VS0.writes (Elt F) VS0.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).1)

/-- The first point's pieces for scratch array 1 tile it, so they cover it. -/
theorem scover1 (c : Dev nD) (y : S8192x1.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1 S8192x1.size (by sl_kernel_rfl) y

/-- What the first point leaves in scratch array 1: its pieces read back. -/
def S1 (c : Dev nD) : Vec F S8192x1 .bf16 :=
  VS1.read (Elt F) (VS1.writes (Elt F) VS1.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.1)

/-- The first point's pieces for scratch array 2 tile it, so they cover it. -/
theorem scover2 (c : Dev nD) (y : S8192x1.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1 S8192x1.size (by sl_kernel_rfl) y

/-- What the first point leaves in scratch array 2: its pieces read back. -/
def S2 (c : Dev nD) : Vec F S8192x1 .bf16 :=
  VS2.read (Elt F) (VS2.writes (Elt F) VS2.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.1)

/-- The first point's pieces for scratch array 3 tile it, so they cover it. -/
theorem scover3 (c : Dev nD) (y : S1x8192.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1 S1x8192.size (by sl_kernel_rfl) y

/-- What the first point leaves in scratch array 3: its pieces read back. -/
def S3 (c : Dev nD) : Vec F S1x8192 .bf16 :=
  VS3.read (Elt F) (VS3.writes (Elt F) VS3.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.1)

/-- The first point's pieces for scratch array 4 tile it, so they cover it. -/
theorem scover4 (c : Dev nD) (y : S1x8192.Idx) : ∃ pc ∈ (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1, y ∈ pc.1.set :=
  View.cover_of_tiledL (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1 S1x8192.size (by sl_kernel_rfl) y

/-- What the first point leaves in scratch array 4: its pieces read back. -/
def S4 (c : Dev nD) : Vec F S1x8192 .bf16 :=
  VS4.read (Elt F) (VS4.writes (Elt F) VS4.junk (kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.1)

/-- A later point's piece for the output window tiles its block, so it covers it. -/
theorem cover7 (c : Dev nD) (t : Fin cfg0.N) (hz : t.val ≠ 0) (y : S256x128.Idx) : ∃ pc ∈ (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1, y ∈ pc.1.set :=
  View.cover_of_tiledL (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1 S256x128.size (by sl_kernel_rfl) y

/-- What the body leaves in the output window's buffer at point `t`: at a later point its piece read back; at the
    first point nothing is stored (a placeholder nothing consults: the window is idle there and not written back). -/
def out7 (c : Dev nD) (t : Fin cfg0.N) : Vec F S256x128 .f32 :=
  if hz : t.val = 0 then VO7.read (Elt F) VO7.junk
  else VO7.read (Elt F) (VO7.writes (Elt F) VO7.junk (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1)

theorem out7_pos (c : Dev nD) (t : Fin cfg0.N) (hz : t.val ≠ 0) :
    out7 m c t = VO7.read (Elt F) (VO7.writes (Elt F) VO7.junk (kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).1) := dif_neg hz

/-- The region invariant before position `n`: before the first point the scratch arrays hold anything; afterwards what
    the first point left. -/
def Phi (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (S0 m c) ∗ owns (c : Thread nD τ) scM1 fullShare (S1 m c) ∗ owns (c : Thread nD τ) scM2 fullShare (S2 m c)
      ∗ owns (c : Thread nD τ) scM3 fullShare (S3 m c) ∗ owns (c : Thread nD τ) scM4 fullShare (S4 m c))

theorem Phi_zero (c : Dev nD) (n : ℕ) (hz : n = 0) : Phi m c n = Pipeline.scopedRest (Ix := Unit) (Name := ℕ) (U := UR sig nD τ) (Lvl := ℕ) (Val := Elt F) spec0 c := by
  subst hz; rfl
theorem Phi_pos (c : Dev nD) (n : ℕ) (hz : n ≠ 0) :
    Phi m c n = iprop(owns (c : Thread nD τ) scM0 fullShare (S0 m c) ∗ owns (c : Thread nD τ) scM1 fullShare (S1 m c) ∗ owns (c : Thread nD τ) scM2 fullShare (S2 m c)
      ∗ owns (c : Thread nD τ) scM3 fullShare (S3 m c) ∗ owns (c : Thread nD τ) scM4 fullShare (S4 m c)) := by
  cases n with
  | zero => exact absurd rfl hz
  | succ n => rfl

/-- The proof data of the one pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ t := Phi m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

end Cert.KernelIdeal.Fr

end
-- ==== Proof.KIBody.lean ====
/-
  The body obligation of the pipelined region, at every grid point: handed the invariant and every window's current
  staging buffer, the body runs and hands back the next invariant and the buffers at what the proof data names.
  At the first point the scratch arrays go from anything to the stored pieces and the output buffer comes back
  untouched; at a later point the scratch arrays are only read and the output buffer receives its piece.
-/
import proofs.«177507_g11553462026822_cont_9to1c4b_334_26_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [Phi_castSucc, Phi_succ, Phi_pos m c (t.val + 1) (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases hz : t.val = 0
  · -- the first point: the projection
    rw [Dat.leavesExact_idle (dats m 0 c) 7 t (idle7 t hz) (noFlush7 t hz)]
    rw [Phi_zero m c _ hz, scoped_eq]
    obtain rfl : t = t0 := Fin.ext hz
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunP c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) scM3 (Memref.isWhole_whole _) scM4 (Memref.isWhole_whole _) hc1_0 hc2_0 (iblk m c 2 t0) (iblk m c 3 t0) (iblk m c 4 t0) (iblk m c 5 t0)).2.2.2.2.2 (iblk m c 0 t0) (iblk m c 1 t0) (iblk m c 6 t0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%es0, HS0⟩, ⟨%es1, HS1⟩, ⟨%es2, HS2⟩, ⟨%es3, HS3⟩, ⟨%es4, HS4⟩⟩
    isplitl [HS0 HS1 HS2 HS3 HS4]
    · isplitl [HS0]
      · unfold owns; iexists _; isplitr
        swap; · iexact HS0
        ipureintro; exact View.read_writes_of_cover _ _ _ _ _ (scover0 m c)
      isplitl [HS1]
      · unfold owns; iexists _; isplitr
        swap; · iexact HS1
        ipureintro; exact View.read_writes_of_cover _ _ _ _ _ (scover1 m c)
      isplitl [HS2]
      · unfold owns; iexists _; isplitr
        swap; · iexact HS2
        ipureintro; exact View.read_writes_of_cover _ _ _ _ _ (scover2 m c)
      isplitl [HS3]
      · unfold owns; iexists _; isplitr
        swap; · iexact HS3
        ipureintro; exact View.read_writes_of_cover _ _ _ _ _ (scover3 m c)
      · unfold owns; iexists _; isplitr
        swap; · iexact HS4
        ipureintro; exact View.read_writes_of_cover _ _ _ _ _ (scover4 m c)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- a later point: one block of output rows
    rw [show (dats m 0 c).leavesExact 7 t = owns (c : Thread nD τ) (ms7 t) fullShare ((dats m 0 c).after 7 t) from by
      unfold Dat.leavesExact; rw [live7 t hz], after7]
    rw [Phi_pos m c _ hz, out7_pos m c t hz]
    iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunR c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) scM4 (Memref.isWhole_whole _) (fun h => hz ((hcond1 t).mp h)) ((hcond2 t).mpr hz) (iblk m c 0 t) (iblk m c 1 t) (iblk m c 6 t) (S0 m c) (S1 m c) (S2 m c) (S3 m c) (S4 m c)).2 (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4]
    · isplitl [HS0]; · iexact HS0
      isplitl [HS1]; · iexact HS1
      isplitl [HS2]; · iexact HS2
      isplitl [HS3]; · iexact HS3
      iexact HS4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7 m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KISplit.lean ====
/-
  How the region takes hold of its arrays. The adjacency matrix is handed to the region through two windows (the
  left and the right half of its columns): its buffer, whole at the full share, is divided into two half shares,
  one per window; every other array goes to its one window at the full share.
-/
import proofs.«177507_g11553462026822_cont_9to1c4b_334_26_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- A window's array, whole, at the window's share and the region-entry contents. -/
theorem arr_eq (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The distinct buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_v0) ↦{fullShare} V m c main_v0)) := by
  unfold Pipeline.arrBufs
  exact bigSep_eq_bigSepL_of_eq [main_arg1, main_arg0, main_arg2, main_arg3, main_call0_v0, main_call0_v1, main_v0] (by decide) (by decide) _

/-- The buffers behind the windows' arrays, whole at the full share, make the windows' arrays at their shares. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [arrBufs_eq, bigSep_W0]
  rw [arr_eq m c 0, arr_eq m c 1, arr_eq m c 2, arr_eq m c 3, arr_eq m c 4, arr_eq m c 5, arr_eq m c 6, arr_eq m c 7]
  rw [share0, share1, share2, share3, share4, share5, share6, share7]
  iintro ⟨Hadj, Hh, HW, HWl, HWr, Hb, Ho⟩
  ihave Hs := ((pointsTo_share (PosShare.mem_left_op_right fullShare)).1) $$ Hadj
  icases Hs with ⟨Hl, Hr⟩
  isplitl [Hl]; · iexact Hl
  isplitl [Hr]; · iexact Hr
  isplitl [Hh]; · iexact Hh
  isplitl [HW]; · iexact HW
  isplitl [HWl]; · iexact HWl
  isplitl [HWr]; · iexact HWr
  isplitl [Hb]; · iexact Hb
  iexact Ho

end Cert.KernelIdeal.Fr

end
-- ==== Proof.KILaunch.lean ====
/-
  The run of the whole program: every weakly fair execution terminates, nothing faults, every array of the region
  ends at what the proof data computes (an input as the region found it; the output with each grid point's block
  written back in turn) and every other buffer that outlives the region as the region found it. Read at the six
  argument arrays this is the frame: they end as launched.
-/
import proofs.«177507_g11553462026822_cont_9to1c4b_334_26_alg».proof.Proof.KIBody
import proofs.«177507_g11553462026822_cont_9to1c4b_334_26_alg».proof.Proof.KISplit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The run's post. -/
def QC : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Phi m c 0 from rfl, Phi_zero m c 0 rfl]
      iintro ⟨-, H⟩; iexact H)
    (hout := fun c => by
      rw [show (dats m 0 c).Φ (Fin.last cfg0.N) = Phi m c cfg0.N from rfl, Phi_pos m c cfg0.N (by decide), scoped_eq]
      iintro ⟨H0, H1, H2, H3, H4⟩
      isplitr; · iempintro
      isplitl [H0]; · iexists _; iexact H0
      isplitl [H1]; · iexists _; iexact H1
      isplitl [H2]; · iexists _; iexact H2
      isplitl [H3]; · iexists _; iexact H3
      iexists _; iexact H4)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Fr.run_main' depends on axioms: [propext, Classical.choice, Quot.sound] -/
#guard_msgs in #print axioms run_main

/-- The argument arrays end as launched: four are inputs of the region (the features, the adjacency matrix, the
    projection, the source attention vector), read through their windows; the target attention vector and the bias
    reach the region only through the two host lines before it and bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Fr

end
-- ==== Proof.Spec.lean ====
/-
  The graph-attention layer as two functions of the argument arrays, over the extended reals.

  Both programs compute, from node features `h` (8192 × 128), an integer adjacency matrix `adj` (8192 × 8192),
  a projection `W` (128 × 128), two attention vectors `Wl`, `Wr` (128 × 1) and a bias `b` (128):
    x = h W,   el i = Σ_d x i d · Wl d,   er j = Σ_d x j d · Wr d,
    a i j = exp (leaky (el i + er j)) where adj i j > 0, else 0        (leaky s = s for s ≥ 0, c·s otherwise),
    out i d = Σ_j (a i j / max (Σ_j a i j) ε) · x j d + b d.
  `refOut` is the arrangement of the plain array program (normalise every attention weight, then contract);
  `kerOut` is the arrangement of the fused program: the exponential of the leaky ramp written as the larger of
  two products of per-node exponentials, the contraction over the neighbours done in two halves, and ONE
  division per output entry, of the contracted numerator by the contracted row sum.
  `c` and `ε` are the same two binary32 words in both arrangements and are never evaluated.
-/
import Idealize.ShloMosaic.PureOps.Ideal
import Idealize.ShloMosaic.Lib.ValueIdx

noncomputable section

open Idealize.ShloMosaic Idealize.ShloMosaic.ValueIdx
open scoped BigOperators

namespace Cert.Gat

abbrev SNxD : Shape := ⟨2, ![8192, 128]⟩
abbrev SNxN : Shape := ⟨2, ![8192, 8192]⟩
abbrev SDxD : Shape := ⟨2, ![128, 128]⟩
abbrev SDx1 : Shape := ⟨2, ![128, 1]⟩
abbrev SD : Shape := ⟨1, ![128]⟩

/-- The slope of the leaky ramp: the binary32 word both programs carry (about 0.2). -/
def slope : EReal := Ideal.ofBits .f32 0x3E4CCCCD#32
/-- The floor under the row sum: the binary32 word both programs carry (about 1e-12). -/
def tiny : EReal := Ideal.ofBits .f32 0x2B8CBCCC#32

/-- The first and the second half of the 8192 neighbours. -/
def lo (j : Fin 4096) : Fin 8192 := ⟨j.val, by have := j.isLt; omega⟩
def hi (j : Fin 4096) : Fin 8192 := ⟨4096 + j.val, by have := j.isLt; omega⟩

section
variable (h : SNxD.Idx → EReal) (adj : SNxN.Idx → BitVec 32) (W : SDxD.Idx → EReal)
  (Wl Wr : SDx1.Idx → EReal) (b : SD.Idx → EReal)

/-- The projected features `x = h W`. -/
def proj (i : Fin 8192) (d : Fin 128) : EReal := ∑ k : Fin 128, h (ix2 i k) * W (ix2 k d)
/-- The source score of node `i`. -/
def el (i : Fin 8192) : EReal := ∑ d : Fin 128, proj h W i d * Wl (ix2 d (0 : Fin 1))
/-- The target score of node `j`. -/
def er (j : Fin 8192) : EReal := ∑ d : Fin 128, proj h W j d * Wr (ix2 d (0 : Fin 1))

/-- Whether `i → j` is an edge: the adjacency word is positive as a signed integer. -/
def edge (i j : Fin 8192) : Prop := (0#32).slt (adj (ix2 i j)) = true
instance (i j : Fin 8192) : Decidable (edge adj i j) := by unfold edge; infer_instance

/-! ### The plain arrangement -/

/-- The leaky ramp. -/
def leaky (s : EReal) : EReal := if 0 ≤ s then s else slope * s
/-- The unnormalised attention weight of the plain arrangement. -/
def refW (i j : Fin 8192) : EReal :=
  if edge adj i j then Ideal.exp (leaky (el h W Wl i + er h W Wr j)) else 0
/-- Its row sum of absolute values, floored. -/
def refDen (i : Fin 8192) : EReal :=
  max (∑ j : Fin 8192, max (refW h adj W Wl Wr i j) (-(refW h adj W Wl Wr i j))) tiny
/-- The plain arrangement's output. -/
def refOut : SNxD.Idx → EReal := fun q =>
  (∑ j : Fin 8192, Ideal.div (refW h adj W Wl Wr (q 0) j) (refDen h adj W Wl Wr (q 0)) * proj h W j (q 1))
    + b (ix1 (q 1))

/-! ### The fused arrangement -/

/-- The unnormalised attention weight of the fused arrangement: the larger of two products of per-node
    exponentials. -/
def kerW (i j : Fin 8192) : EReal :=
  if edge adj i j then
    max (Ideal.exp (el h W Wl i) * Ideal.exp (er h W Wr j))
        (Ideal.exp (slope * el h W Wl i) * Ideal.exp (slope * er h W Wr j))
  else 0
/-- The contracted numerator, the neighbours taken in two halves. -/
def kerNum (i : Fin 8192) (d : Fin 128) : EReal :=
  (∑ j : Fin 4096, kerW h adj W Wl Wr i (lo j) * proj h W (lo j) d)
    + (∑ j : Fin 4096, kerW h adj W Wl Wr i (hi j) * proj h W (hi j) d)
/-- The contracted row sum, the neighbours taken in two halves. -/
def kerDen (i : Fin 8192) : EReal :=
  (∑ j : Fin 4096, kerW h adj W Wl Wr i (lo j)) + (∑ j : Fin 4096, kerW h adj W Wl Wr i (hi j))
/-- The fused arrangement's output. -/
def kerOut : SNxD.Idx → EReal := fun q =>
  Ideal.div (kerNum h adj W Wl Wr (q 0) (q 1)) (max (kerDen h adj W Wl Wr (q 0)) tiny) + b (ix1 (q 1))

end

/-- Every entry of an array is a real number. -/
def AllReal {S : Shape} (f : S.Idx → EReal) : Prop := ∀ i, ∃ r : ℝ, f i = (r : EReal)

end Cert.Gat

end
-- ==== Proof.KerLayout.lean ====
/-
  The fused kernel's arithmetic read at an index: the layout operations and the block products.
-/
import proofs.«177507_g11553462026822_cont_9to1c4b_334_26_alg».proof.Proof.Spec
import proofs.«177507_g11553462026822_cont_9to1c4b_334_26_alg».proof.Proof.Gen.KernelIdeal.Skeleton
import Idealize.ShloMosaic.Lib.ValueLayout
import Idealize.ShloMosaic.PureOps.Ideal.Laws

noncomputable section

open Cert.KernelIdeal Cert.KernelIdeal.Gen Cert.Gat Idealize.ShloMosaic Idealize.ShloMosaic.ValueIdx
open scoped BigOperators

namespace Cert.KernelIdeal.Payload

/-! ## The block products at an index

Each product contracts ONE axis; its sum over the contraction index is re-indexed through that axis's coordinate. -/

theorem mmProj_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem mmProj_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem mmProj_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl
theorem mmProj_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q

/-- The projection product `[8192,128] × [128,128]`: row `p` of the left operand against column `c` of the right. -/
theorem mmProj_apply (A : FVec Ideal S8192x128 .f32) (B : FVec Ideal S128x128 .f32) (p : Fin 8192) (c : Fin 128) :
    matmul dot_S8192x128_S128x128_S8192x128_1_0_0_1_n_n none A B (constant (F := Ideal) S8192x128 .f32 0x00000000#32) (ix2 p c)
      = ∑ k : Fin 128, A (ix2 p k) * B (ix2 k c) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p c) ((contrEquiv1 dot_S8192x128_S128x128_S8192x128_1_0_0_1_n_n 128 rfl rfl).symm k) = ix2 p k :=
    funext fun a => Fin.ext (by
      match a with
      | ⟨0, _⟩ => exact mmProj_lhs_0 _ _
      | ⟨1, _⟩ => exact (mmProj_lhs_1 _ _).trans hk)
  have er : dot_S8192x128_S128x128_S8192x128_1_0_0_1_n_n.rhsIdx (ix2 p c) ((contrEquiv1 dot_S8192x128_S128x128_S8192x128_1_0_0_1_n_n 128 rfl rfl).symm k) = ix2 k c :=
    funext fun a => Fin.ext (by
      match a with
      | ⟨1, _⟩ => exact mmProj_rhs_1 _ _
      | ⟨0, _⟩ => exact (mmProj_rhs_0 _ _).trans hk)
  rw [el, er]

theorem mmSrc_lhs_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide),
    dif_pos (show (0 : Fin S8192x128.rank) ∈ dot_S8192x128_S128x1_S8192x1_1_0_0_1_n_n.lhsNonContracting by decide)]
  rfl
theorem mmSrc_lhs_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem mmSrc_rhs_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide),
    dif_pos (show (1 : Fin S128x1.rank) ∈ dot_S8192x128_S128x1_S8192x1_1_0_0_1_n_n.rhsNonContracting by decide)]
  rfl
theorem mmSrc_rhs_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q

/-- The source-score product `[8192,128] × [128,1]`. -/
theorem mmSrc_apply (A : FVec Ideal S8192x128 .f32) (B : FVec Ideal S128x1 .f32) (p : Fin 8192) (c : Fin 1) :
    matmul dot_S8192x128_S128x1_S8192x1_1_0_0_1_n_n none A B (constant (F := Ideal) S8192x1 .f32 0x00000000#32) (ix2 p c)
      = ∑ k : Fin 128, A (ix2 p k) * B (ix2 k c) := by
  simp only [matmul]
  rw [Ideal.matmul_constant_zero_apply, ← Equiv.sum_comp (contrEquiv1 dot_S8192x128_S128x1_S8192x1_1_0_0_1_n_n 128 rfl rfl).symm]
  refine Finset.sum_congr rfl fun k _ => ?_
  have hk := contrEquiv1_symm_val dot_S8192x128_S128x1_S8192x1_1_0_0_1_n_n 128 rfl rfl k
  have el : dot_S8192x128_S128x1_S8192x1_1_0_0_1_n_n.lhsIdx (ix2 p c) ((contrEquiv1 dot_S8192x128_S128x1_S8192x1_1_0_0_1_n_n 128 rfl rfl).symm k) = ix2 p k :=
    funext fun a => Fin.ext (by
      match a with
      | ⟨0, _⟩ => exact mmSrc_lhs_0 _ _
      | ⟨1, _⟩ => exact (mmSrc_lhs_1 _ _).trans hk)
  have er : dot_S8192x128_S128x1_S8192x1_1_0_0_1_n_n.rhsIdx (ix2 p c) ((contrEquiv1 dot_S8192x128_S128x1_S8192x1_1_0_0_1_n_n 128 rfl rfl).symm k) = ix2 k c :=
    funext fun a => Fin.ext (by
      match a with
      | ⟨1, _⟩ => exact mmSrc_rhs_1 _ _
      | ⟨0, _⟩ => exact (mmSrc_rhs_0 _ _).trans hk)
  rw [el, er]

theorem mmTgt_lhs_0 (i : S1x8192.Idx) (q : dot_S1x128_S8192x128_S1x8192_1_1_0_0_n_n.contr.Idx) :
    (dot_S1x128_S8192x128_S1x8192_1_1_0_0_n_n.lhsIdx i q 0).val = (i 0).val := by
  unfold DotDims.lhsIdx
  rw [dif_neg (show ¬(0 : Fin S1x128.rank) ∈ dot_S1x128_S8192x128_S1x8192_1_1_0_0_n_n.lhsBatch by decide),
    dif_pos (show (0 : Fin S1x128.rank) ∈ dot_S1x128_S8192x128_S1x8192_1_1_0_0_n_n.lhsNonContracting by decide)]
  rfl
theorem mmTgt_lhs_1 (i : S1x8192.Idx) (q : dot_S1x128_S8192x128_S1x8192_1_1_0_0_n_n.contr.Idx) :
    (dot_S1x128_S8192x128_S1x8192_1_1_0_0_n_n.lhsIdx i q 1).val = (q ⟨0, by decide⟩).val :=
  dot_S1x128_S8192x128_S1x8192_1_1_0_0_n_n.lhsIdx_val_of_single rfl i q
theorem mmTgt_rhs_0 (i : S1x8192.Idx) (q : dot_S1x128_S8192x128_S1x8192_1_1_0_0_n_n.contr.Idx) :
    (dot_S1x128_S8192x128_S1x8192_1_1_0_0_n_n.rhsIdx i q 0).val = (i 1).val := by
  unfold DotDims.rhsIdx
  rw [dif_neg (show ¬(0 : Fin S8192x128.rank) ∈ dot_S1x128_S8192x128_S1x8192_1_1_0_0_n_n.rhsBatch by decide),
    dif_pos (show (0 : Fin S8192x128.rank) ∈ dot_S1x128_S8192x128_S1x8192_1_1_0_0_n_n.rhsNonContracting by decide)]
  rfl
theorem mmTgt_rhs_1 (i : S1x8192.Idx) (q : dot_S1x128_S8192x128_S1x8192_1_1_0_0_n_n.contr.Idx) :
    (dot_S1x128_S8192x128_S1x8192_1_1_0_0_n_n.rhsIdx i q 1).val = (q ⟨0, by decide⟩).val :=
  dot_S1x128_S8192x128_S1x8192_1_1_0_0_n_n.rhsIdx_val_of_single rfl i q

/-- The target-score product `[1,128] × [8192,128]ᵀ`: both operands contract their second axis. -/
theorem mmTgt_apply (A : FVec Ideal S1x128 .f32) (B : FVec Ideal S8192x128 .f32) (p : Fin 1) (c : Fin 8192) :
    matmul dot_S1x128_S8192x128_S1x8192_1_1_0_0_n_n none A B (constant (F := Ideal) S1x8192 .f32 0x00000000#32) (ix2 p c)
      = ∑ k : Fin 128, A (ix2 p k) * B (ix2 c k) := by
  simp only [matmul]
  rw [Ideal.matmul_constant_zero_apply, ← Equiv.sum_comp (contrEquiv1 dot_S1x128_S8192x128_S1x8192_1_1_0_0_n_n 128 rfl rfl).symm]
  refine Finset.sum_congr rfl fun k _ => ?_
  have hk := contrEquiv1_symm_val dot_S1x128_S8192x128_S1x8192_1_1_0_0_n_n 128 rfl rfl k
  have el : dot_S1x128_S8192x128_S1x8192_1_1_0_0_n_n.lhsIdx (ix2 p c) ((contrEquiv1 dot_S1x128_S8192x128_S1x8192_1_1_0_0_n_n 128 rfl rfl).symm k) = ix2 p k :=
    funext fun a => Fin.ext (by
      match a with
      | ⟨0, _⟩ => exact mmTgt_lhs_0 _ _
      | ⟨1, _⟩ => exact (mmTgt_lhs_1 _ _).trans hk)
  have er : dot_S1x128_S8192x128_S1x8192_1_1_0_0_n_n.rhsIdx (ix2 p c) ((contrEquiv1 dot_S1x128_S8192x128_S1x8192_1_1_0_0_n_n 128 rfl rfl).symm k) = ix2 c k :=
    funext fun a => Fin.ext (by
      match a with
      | ⟨0, _⟩ => exact mmTgt_rhs_0 _ _
      | ⟨1, _⟩ => exact (mmTgt_rhs_1 _ _).trans hk)
  rw [el, er]

theorem mmAgg_lhs_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
theorem mmAgg_lhs_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem mmAgg_rhs_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl
theorem mmAgg_rhs_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q

/-- The aggregation product `[256,4096] × [4096,256]` of one half of the neighbours. -/
theorem mmAgg_apply (A : FVec Ideal S256x4096 .bf16) (B : FVec Ideal S4096x256 .bf16) (p : Fin 256) (c : Fin 256) :
    matmul dot_S256x4096_S4096x256_S256x256_1_0_0_1_n_n none A B (constant (F := Ideal) S256x256 .f32 0x00000000#32) (ix2 p c)
      = ∑ k : Fin 4096, A (ix2 p k) * B (ix2 k c) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p c) ((contrEquiv1 dot_S256x4096_S4096x256_S256x256_1_0_0_1_n_n 4096 rfl rfl).symm k) = ix2 p k :=
    funext fun a => Fin.ext (by
      match a with
      | ⟨0, _⟩ => exact mmAgg_lhs_0 _ _
      | ⟨1, _⟩ => exact (mmAgg_lhs_1 _ _).trans hk)
  have er : dot_S256x4096_S4096x256_S256x256_1_0_0_1_n_n.rhsIdx (ix2 p c) ((contrEquiv1 dot_S256x4096_S4096x256_S256x256_1_0_0_1_n_n 4096 rfl rfl).symm k) = ix2 k c :=
    funext fun a => Fin.ext (by
      match a with
      | ⟨1, _⟩ => exact mmAgg_rhs_1 _ _
      | ⟨0, _⟩ => exact (mmAgg_rhs_0 _ _).trans hk)
  rw [el, er]

/-! ## Layout operations and words at an index -/

/-- A column `[a, 1]` broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The binary32 word of `1.0` is the extended real `1`. -/
theorem ofBits_one_f32 : Ideal.ofBits .f32 0x3F800000#32 = 1 := by
  simp [Ideal.ofBits, Ideal.ieee, -EReal.coe_mul]; norm_num

/-- The bfloat16 zero word is the extended real `0`. -/
theorem ofBits_zero_bf16 : Ideal.ofBits .bf16 0x0000#16 = 0 := by simp [Ideal.ofBits, Ideal.ieee]

/-- A select on a decided comparison bit is the `if` on the comparison. -/
theorem select_ofBool {α : Type} (t : Bool) (x y : α) :
    Scalar.select (BitVec.ofBool t) x y = if t = true then x else y := by
  cases t <;> rfl

/-- A select on "the column number is zero", the column number read as a 32-bit word. -/
theorem select_col0 {α : Type} (c : Fin 128) (x y : α) :
    Scalar.select (IntOp.cmpi .eq (BitVec.ofNat 32 c.val) 0#32) x y = if c.val = 0 then x else y := by
  have hc := c.isLt
  by_cases h0 : c.val = 0
  · rw [h0, if_pos rfl]; rfl
  · rw [if_neg h0]
    have hne : (BitVec.ofNat 32 c.val == 0#32) = false := by
      rw [beq_eq_false_iff_ne]
      intro he
      have := congrArg BitVec.toNat he
      simp only [BitVec.toNat_ofNat, BitVec.toNat_zero] at this
      omega
    show Scalar.select (BitVec.ofBool (BitVec.ofNat 32 c.val == 0#32)) x y = y
    rw [hne]; rfl

end Cert.KernelIdeal.Payload

end
-- ==== Proof.KerRow.lean ====
/-
  One row block of the fused kernel read at an index, at the extended reals: the masked attention tile of each
  half of the neighbours, the two aggregation products against the augmented features, and the final division
  and bias.
-/
import proofs.«177507_g11553462026822_cont_9to1c4b_334_26_alg».proof.Proof.KerLayout

noncomputable section

open Cert.KernelIdeal Cert.KernelIdeal.Gen Cert.Gat Idealize.ShloMosaic Idealize.ShloMosaic.ValueIdx
open scoped BigOperators

namespace Cert.KernelIdeal.Payload

/-- Row `r` of row block `R`. -/
def row (R : Fin 32) (r : Fin 256) : Fin 8192 := ⟨256 * R.val + r.val, by have := R.isLt; have := r.isLt; omega⟩

/-- The augmented right operand `[x | 1 | 0 …]`: columns 0..127 the projected features, column 128 all ones (so
    that the aggregation product's column 128 is the row sum of the attention weights), the rest zero. -/
def xaug (h : SNxD.Idx → EReal) (W : SDxD.Idx → EReal) (k : Fin 8192) (c : Fin 256) : EReal :=
  if hc : c.val < 128 then proj h W k ⟨c.val, hc⟩ else if c.val = 128 then 1 else 0

theorem xaug_lt (h : SNxD.Idx → EReal) (W : SDxD.Idx → EReal) (k : Fin 8192) (d : Fin 128) :
    xaug h W k ⟨d.val, by have := d.isLt; omega⟩ = proj h W k d := by
  unfold xaug
  rw [dif_pos d.isLt]

theorem xaug_128 (h : SNxD.Idx → EReal) (W : SDxD.Idx → EReal) (k : Fin 8192) :
    xaug h W k ⟨128, by decide⟩ = 1 := by
  unfold xaug
  rw [dif_neg (show ¬((⟨128, by decide⟩ : Fin 256).val < 128) by decide), if_pos rfl]

/-! ## The masked attention tile -/

/-- The tile at `(r, k)`: where the adjacency word is positive, the larger of the two products of a row factor
    and a column factor; zero elsewhere. -/
theorem tile_apply (v9 v12 : FVec Ideal S256x1 .bf16) (a b : FVec Ideal S1x4096 .bf16) (m : IVec S256x4096 32)
    (r : Fin 256) (k : Fin 4096) :
    select (cmpi .sgt m (broadcast S256x4096 0#32))
        (maximumf
          (mulf (broadcastTo S256x4096 v9 broadcasts_S256x1_S256x4096) (broadcastTo S256x4096 a broadcasts_S1x4096_S256x4096))
          (mulf (broadcastTo S256x4096 v12 broadcasts_S256x1_S256x4096) (broadcastTo S256x4096 b broadcasts_S1x4096_S256x4096)))
        (broadcast S256x4096 (Scalar.ofBits (F := Ideal) .bf16 0x0000#16)) (ix2 r k)
      = if (0#32).slt (m (ix2 r k)) = true then
          max (v9 (ix2 r (0 : Fin 1)) * a (ix2 (0 : Fin 1) k)) (v12 (ix2 r (0 : Fin 1)) * b (ix2 (0 : Fin 1) k))
        else 0 := by
  show Scalar.select (BitVec.ofBool ((0#32).slt (m (ix2 r k))))
      (max (broadcastTo S256x4096 v9 broadcasts_S256x1_S256x4096 (ix2 r k)
              * broadcastTo S256x4096 a broadcasts_S1x4096_S256x4096 (ix2 r k))
           (broadcastTo S256x4096 v12 broadcasts_S256x1_S256x4096 (ix2 r k)
              * broadcastTo S256x4096 b broadcasts_S1x4096_S256x4096 (ix2 r k)))
      (Ideal.ofBits .bf16 0x0000#16) = _
  rw [select_ofBool, broadcastTo_a1_ab_apply v9, broadcastTo_a1_ab_apply v12, broadcastTo_1b_ab_apply a,
    broadcastTo_1b_ab_apply b, ofBits_zero_bf16]

/-- The tile is the fused arrangement's attention weight, once its factors are the exponentials of the scores. -/
theorem tile_kerW (h : SNxD.Idx → EReal) (adj : SNxN.Idx → BitVec 32) (W : SDxD.Idx → EReal) (Wl Wr : SDx1.Idx → EReal)
    (R : Fin 32) (v9 v12 : FVec Ideal S256x1 .bf16) (a b : FVec Ideal S1x4096 .bf16) (m : IVec S256x4096 32)
    (half : Fin 4096 → Fin 8192)
    (h9 : ∀ r : Fin 256, v9 (ix2 r (0 : Fin 1)) = Ideal.exp (el h W Wl (row R r)))
    (h12 : ∀ r : Fin 256, v12 (ix2 r (0 : Fin 1)) = Ideal.exp (slope * el h W Wl (row R r)))
    (ha : ∀ k : Fin 4096, a (ix2 (0 : Fin 1) k) = Ideal.exp (er h W Wr (half k)))
    (hb : ∀ k : Fin 4096, b (ix2 (0 : Fin 1) k) = Ideal.exp (slope * er h W Wr (half k)))
    (hm : ∀ (r : Fin 256) (k : Fin 4096), m (ix2 r k) = adj (ix2 (row R r) (half k)))
    (r : Fin 256) (k : Fin 4096) :
    select (cmpi .sgt m (broadcast S256x4096 0#32))
        (maximumf
          (mulf (broadcastTo S256x4096 v9 broadcasts_S256x1_S256x4096) (broadcastTo S256x4096 a broadcasts_S1x4096_S256x4096))
          (mulf (broadcastTo S256x4096 v12 broadcasts_S256x1_S256x4096) (broadcastTo S256x4096 b broadcasts_S1x4096_S256x4096)))
        (broadcast S256x4096 (Scalar.ofBits (F := Ideal) .bf16 0x0000#16)) (ix2 r k)
      = kerW h adj W Wl Wr (row R r) (half k) := by
  rw [tile_apply, h9, h12, ha, hb, hm]
  unfold kerW
  by_cases hE : (0#32).slt (adj (ix2 (row R r) (half k))) = true
  · rw [if_pos hE, if_pos (show edge adj (row R r) (half k) from hE)]
  · rw [if_neg hE, if_neg (show ¬edge adj (row R r) (half k) from hE)]

/-! ## The two halves of the neighbours -/

section Halves
variable (h : SNxD.Idx → EReal) (adj : SNxN.Idx → BitVec 32) (W : SDxD.Idx → EReal) (Wl Wr : SDx1.Idx → EReal)
  (R : Fin 32) (v9 v12 : Vec Ideal S256x1 .bf16) (v13 v14 : Vec Ideal S1x8192 .bf16)
  (h9 : ∀ r : Fin 256, v9 (ix2 r (0 : Fin 1)) = Ideal.exp (el h W Wl (row R r)))
  (h12 : ∀ r : Fin 256, v12 (ix2 r (0 : Fin 1)) = Ideal.exp (slope * el h W Wl (row R r)))
  (h13 : ∀ j : Fin 8192, v13 (ix2 (0 : Fin 1) j) = Ideal.exp (er h W Wr j))
  (h14 : ∀ j : Fin 8192, v14 (ix2 (0 : Fin 1) j) = Ideal.exp (slope * er h W Wr j))
include h9 h12 h13 h14

/-- The second half's tile: the attention weights of the row block against the neighbours `4096 + k`. -/
theorem pay13_apply (v40 : Vec Ideal S256x4096 .i32)
    (h40 : ∀ (r : Fin 256) (k : Fin 4096), v40 (ix2 r k) = adj (ix2 (row R r) (hi k)))
    (r : Fin 256) (k : Fin 4096) :
    k0_pay13 (F := Ideal) v9 v12 v13 v14 v40 (ix2 r k) = kerW h adj W Wl Wr (row R r) (hi k) := by
  unfold k0_pay13
  exact tile_kerW h adj W Wl Wr R v9 v12
    (extractStridedSlice S1x4096 ![0, 4096] v13 slices_S1x8192_o0_4096_S1x4096)
    (extractStridedSlice S1x4096 ![0, 4096] v14 slices_S1x8192_o0_4096_S1x4096) v40 hi h9 h12
    (fun k => (slice2_axis1_apply 4096 v13 slices_S1x8192_o0_4096_S1x4096 0 k (hi k) rfl).trans (h13 (hi k)))
    (fun k => (slice2_axis1_apply 4096 v14 slices_S1x8192_o0_4096_S1x4096 0 k (hi k) rfl).trans (h14 (hi k)))
    h40 r k

/-- The first half's aggregation product: the attention weights against the neighbours `k < 4096`, contracted
    with the augmented features. -/
theorem pay12_apply (v24 : Vec Ideal S256x4096 .i32) (v29 : Vec Ideal S4096x256 .bf16)
    (h24 : ∀ (r : Fin 256) (k : Fin 4096), v24 (ix2 r k) = adj (ix2 (row R r) (lo k)))
    (h29 : ∀ (k : Fin 4096) (c : Fin 256), v29 (ix2 k c) = xaug h W (lo k) c)
    (r : Fin 256) (c : Fin 256) :
    k0_pay12 (F := Ideal) v9 v12 v13 v14 v24 v29 (ix2 r c)
      = ∑ k : Fin 4096, kerW h adj W Wl Wr (row R r) (lo k) * xaug h W (lo k) c := by
  unfold k0_pay12
  refine (mmAgg_apply _ v29 r c).trans ?_
  refine Finset.sum_congr rfl fun k _ => ?_
  exact congrArg₂ (· * ·)
    (tile_kerW h adj W Wl Wr R v9 v12
      (extractStridedSlice S1x4096 ![0, 0] v13 slices_S1x8192_o0_0_S1x4096)
      (extractStridedSlice S1x4096 ![0, 0] v14 slices_S1x8192_o0_0_S1x4096) v24 lo h9 h12
      (fun k => (slice2_axis1_apply 0 v13 slices_S1x8192_o0_0_S1x4096 0 k (lo k) (Nat.zero_add _).symm).trans (h13 (lo k)))
      (fun k => (slice2_axis1_apply 0 v14 slices_S1x8192_o0_0_S1x4096 0 k (lo k) (Nat.zero_add _).symm).trans (h14 (lo k)))
      h24 r k)
    (h29 k c)

end Halves

/-! ## The division and the bias -/

/-- The kernel's last lines on an accumulated `[256, 256]` block: columns `d < 128` divided by column 128 floored
    at `tiny`, plus the bias row. -/
theorem epilogue_apply (acc : FVec Ideal S256x256 .f32) (v54 : Vec Ideal S1x128 .f32) (r : Fin 256) (d : Fin 128) :
    addf
        (divf (extractStridedSlice S256x128 ![0, 0] acc slices_S256x256_o0_0_S256x128)
          (broadcastTo S256x128
            (maximumf (extractStridedSlice S256x1 ![0, 128] acc slices_S256x256_o0_128_S256x1)
              (broadcast S256x1 (Scalar.ofBits (F := Ideal) .f32 0x2B8CBCCC#32)))
            broadcasts_S256x1_S256x128))
        (broadcastTo S256x128 (shapeCast S1x128 v54 shapeCasts_S1x128_S1x128) broadcasts_S1x128_S256x128) (ix2 r d)
      = Ideal.div (acc (ix2 r (⟨d.val, by have := d.isLt; omega⟩ : Fin 256)))
            (max (acc (ix2 r (⟨128, by decide⟩ : Fin 256))) tiny)
          + v54 (ix2 (0 : Fin 1) d) := by
  show Ideal.div (extractStridedSlice S256x128 ![0, 0] acc slices_S256x256_o0_0_S256x128 (ix2 r d))
        (broadcastTo S256x128
          (maximumf (extractStridedSlice S256x1 ![0, 128] acc slices_S256x256_o0_128_S256x1)
            (broadcast S256x1 (Scalar.ofBits (F := Ideal) .f32 0x2B8CBCCC#32)))
          broadcasts_S256x1_S256x128 (ix2 r d))
      + broadcastTo S256x128 (shapeCast S1x128 v54 shapeCasts_S1x128_S1x128) broadcasts_S1x128_S256x128 (ix2 r d) = _
  rw [slice2_axis1_apply 0 acc slices_S256x256_o0_0_S256x128 r d (⟨d.val, by have := d.isLt; omega⟩ : Fin 256)
      (Nat.zero_add _).symm,
    broadcastTo_a1_ab_apply, broadcastTo_1b_ab_apply, shapeCast_self]
  show Ideal.div _ (max (extractStridedSlice S256x1 ![0, 128] acc slices_S256x256_o0_128_S256x1 (ix2 r (0 : Fin 1))) tiny)
      + _ = _
  rw [slice2_axis1_apply 128 acc slices_S256x256_o0_128_S256x1 r (0 : Fin 1) (⟨128, by decide⟩ : Fin 256) rfl]

/-! ## One row block's output -/

/-- Row `r` of row block `R`, column `d`: the fused arrangement's output entry. -/
theorem out_block_apply (h : SNxD.Idx → EReal) (adj : SNxN.Idx → BitVec 32) (W : SDxD.Idx → EReal)
    (Wl Wr : SDx1.Idx → EReal) (b : SD.Idx → EReal) (R : Fin 32)
    (v9 v12 : Vec Ideal S256x1 .bf16) (v13 v14 : Vec Ideal S1x8192 .bf16) (v24 v40 : Vec Ideal S256x4096 .i32)
    (v29 v45 : Vec Ideal S4096x256 .bf16) (v54 : Vec Ideal S1x128 .f32)
    (h9 : ∀ r : Fin 256, v9 (ix2 r (0 : Fin 1)) = Ideal.exp (el h W Wl (row R r)))
    (h12 : ∀ r : Fin 256, v12 (ix2 r (0 : Fin 1)) = Ideal.exp (slope * el h W Wl (row R r)))
    (h13 : ∀ j : Fin 8192, v13 (ix2 (0 : Fin 1) j) = Ideal.exp (er h W Wr j))
    (h14 : ∀ j : Fin 8192, v14 (ix2 (0 : Fin 1) j) = Ideal.exp (slope * er h W Wr j))
    (h24 : ∀ (r : Fin 256) (k : Fin 4096), v24 (ix2 r k) = adj (ix2 (row R r) (lo k)))
    (h40 : ∀ (r : Fin 256) (k : Fin 4096), v40 (ix2 r k) = adj (ix2 (row R r) (hi k)))
    (h29 : ∀ (k : Fin 4096) (c : Fin 256), v29 (ix2 k c) = xaug h W (lo k) c)
    (h45 : ∀ (k : Fin 4096) (c : Fin 256), v45 (ix2 k c) = xaug h W (hi k) c)
    (h54 : ∀ d : Fin 128, v54 (ix2 (0 : Fin 1) d) = b (ix1 d))
    (r : Fin 256) (d : Fin 128) :
    k0_pay4 (F := Ideal) (k0_pay12 v9 v12 v13 v14 v24 v29) (k0_pay13 v9 v12 v13 v14 v40) v45 v54 (ix2 r d)
      = kerOut h adj W Wl Wr b (ix2 (row R r) d) := by
  -- the accumulated block at any of its 256 columns: the two halves' contractions
  have hacc : ∀ c : Fin 256,
      addf (k0_pay12 (F := Ideal) v9 v12 v13 v14 v24 v29)
          (matmul dot_S256x4096_S4096x256_S256x256_1_0_0_1_n_n none (k0_pay13 (F := Ideal) v9 v12 v13 v14 v40) v45
            (constant (F := Ideal) S256x256 .f32 0x00000000#32)) (ix2 r c)
        = (∑ k : Fin 4096, kerW h adj W Wl Wr (row R r) (lo k) * xaug h W (lo k) c)
          + (∑ k : Fin 4096, kerW h adj W Wl Wr (row R r) (hi k) * xaug h W (hi k) c) := fun c =>
    congrArg₂ (· + ·)
      (pay12_apply h adj W Wl Wr R v9 v12 v13 v14 h9 h12 h13 h14 v24 v29 h24 h29 r c)
      ((mmAgg_apply _ v45 r c).trans (Finset.sum_congr rfl fun k _ =>
        congrArg₂ (· * ·) (pay13_apply h adj W Wl Wr R v9 v12 v13 v14 h9 h12 h13 h14 v40 h40 r k) (h45 k c)))
  unfold k0_pay4
  refine (epilogue_apply _ v54 r d).trans ?_
  rw [hacc, hacc, h54]
  simp only [xaug_lt, xaug_128, mul_one]
  rfl

end Cert.KernelIdeal.Payload

end
-- ==== Proof.KerPayload.lean ====
/-
  The fused kernel's arithmetic read at an index, at the extended reals: the projection point's stored blocks
  and one row block's output.
-/
import proofs.«177507_g11553462026822_cont_9to1c4b_334_26_alg».proof.Proof.KerLayout
import proofs.«177507_g11553462026822_cont_9to1c4b_334_26_alg».proof.Proof.KerRow

noncomputable section

open Cert.KernelIdeal Cert.KernelIdeal.Gen Cert.Gat Idealize.ShloMosaic Idealize.ShloMosaic.ValueIdx
open scoped BigOperators

namespace Cert.KernelIdeal.Payload

/-! ## The projection point -/

/-- The projected features: the product `h W` at `(j, d)`. -/
theorem pay5_apply (v6 : Vec Ideal S8192x128 .f32) (v7 : Vec Ideal S128x128 .f32) (j : Fin 8192) (d : Fin 128) :
    k0_pay5 (F := Ideal) v6 v7 (ix2 j d) = proj v6 v7 j d := by
  unfold k0_pay5
  exact mmProj_apply v6 v7 j d

/-- The stored copy of the projected features: a change of format is the identity on the extended reals. -/
theorem pay6_apply (v6 : Vec Ideal S8192x128 .f32) (v7 : Vec Ideal S128x128 .f32) (j : Fin 8192) (d : Fin 128) :
    k0_pay6 (F := Ideal) v6 v7 (ix2 j d) = proj v6 v7 j d := by
  unfold k0_pay6
  exact (congrFun (shapeCast_self _ _) (ix2 j d)).trans (pay5_apply v6 v7 j d)

/-- The column the kernel appends to the stored features: ones in its first lane, zeros elsewhere. -/
theorem pay7_apply (j : Fin 8192) (c : Fin 128) :
    k0_pay7 (F := Ideal) (ix2 j c) = if c.val = 0 then 1 else 0 := by
  unfold k0_pay7
  refine (congrFun (shapeCast_self _ _) (ix2 j c)).trans ?_
  show Scalar.select (IntOp.cmpi .eq (iota .tc S8192x128 32 [1] iota_S8192x128_d1_w32 (ix2 j c)) 0#32)
      (Ideal.ofBits .f32 0x3F800000#32) (Ideal.ofBits .f32 0x00000000#32) = _
  rw [iota_single_apply, ofBits_one_f32, Ideal.ofBits_zero_f32]
  exact select_col0 c 1 0

/-- The source scores: the projected features of node `i` against the source attention vector. -/
theorem pay8_apply (v6 : Vec Ideal S8192x128 .f32) (v7 : Vec Ideal S128x128 .f32) (v23 : Vec Ideal S128x1 .f32)
    (i : Fin 8192) : k0_pay8 (F := Ideal) v6 v7 v23 (ix2 i (0 : Fin 1)) = el v6 v7 v23 i := by
  unfold k0_pay8
  refine (mmSrc_apply (k0_pay5 v6 v7) v23 i 0).trans ?_
  unfold el
  exact Finset.sum_congr rfl fun k _ => congrArg (· * v23 (ix2 k (0 : Fin 1))) (pay5_apply v6 v7 i k)

/-- The exponential of the source score. -/
theorem pay9_apply (v6 : Vec Ideal S8192x128 .f32) (v7 : Vec Ideal S128x128 .f32) (v23 : Vec Ideal S128x1 .f32)
    (i : Fin 8192) : k0_pay9 (F := Ideal) v6 v7 v23 (ix2 i (0 : Fin 1)) = Ideal.exp (el v6 v7 v23 i) := by
  unfold k0_pay9
  refine (congrFun (shapeCast_self _ _) (ix2 i (0 : Fin 1))).trans ?_
  exact congrArg Ideal.exp (pay8_apply v6 v7 v23 i)

/-- The exponential of the source score scaled by the ramp's slope. -/
theorem pay10_apply (v6 : Vec Ideal S8192x128 .f32) (v7 : Vec Ideal S128x128 .f32) (v23 : Vec Ideal S128x1 .f32)
    (i : Fin 8192) : k0_pay10 (F := Ideal) v6 v7 v23 (ix2 i (0 : Fin 1)) = Ideal.exp (slope * el v6 v7 v23 i) := by
  unfold k0_pay10
  refine (congrFun (shapeCast_self _ _) (ix2 i (0 : Fin 1))).trans ?_
  exact congrArg (fun t => Ideal.exp (slope * t)) (pay8_apply v6 v7 v23 i)

/-- The target scores: the kernel contracts the transposed target attention vector (a row) with the projected
    features; the product of extended reals commutes. -/
theorem pay1_apply (v6 : Vec Ideal S8192x128 .f32) (v7 : Vec Ideal S128x128 .f32) (vT : Vec Ideal S1x128 .f32)
    (wr : Vec Ideal S128x1 .f32) (hT : ∀ d : Fin 128, vT (ix2 (0 : Fin 1) d) = wr (ix2 d (0 : Fin 1))) (j : Fin 8192) :
    k0_pay1 (F := Ideal) (k0_pay5 v6 v7) (k0_pay11 vT) (constant (F := Ideal) S1x8192 .f32 0x00000000#32) (ix2 (0 : Fin 1) j)
      = er v6 v7 wr j := by
  unfold k0_pay1
  refine (mmTgt_apply (k0_pay11 vT) (k0_pay5 v6 v7) 0 j).trans ?_
  unfold er
  refine Finset.sum_congr rfl fun k _ => ?_
  have e1 : k0_pay11 (F := Ideal) vT (ix2 (0 : Fin 1) k) = wr (ix2 k (0 : Fin 1)) := by
    unfold k0_pay11
    exact (congrFun (shapeCast_self _ _) _).trans (hT k)
  rw [e1, pay5_apply, mul_comm]

/-- The exponential of the target score. -/
theorem pay2_apply (v6 : Vec Ideal S8192x128 .f32) (v7 : Vec Ideal S128x128 .f32) (vT : Vec Ideal S1x128 .f32)
    (wr : Vec Ideal S128x1 .f32) (hT : ∀ d : Fin 128, vT (ix2 (0 : Fin 1) d) = wr (ix2 d (0 : Fin 1))) (j : Fin 8192) :
    k0_pay2 (F := Ideal) (k0_pay5 v6 v7) (k0_pay11 vT) (constant (F := Ideal) S1x8192 .f32 0x00000000#32) (ix2 (0 : Fin 1) j)
      = Ideal.exp (er v6 v7 wr j) := by
  unfold k0_pay2
  refine (congrFun (shapeCast_self _ _) (ix2 (0 : Fin 1) j)).trans ?_
  exact congrArg Ideal.exp (pay1_apply v6 v7 vT wr hT j)

/-- The exponential of the target score scaled by the ramp's slope. -/
theorem pay3_apply (v6 : Vec Ideal S8192x128 .f32) (v7 : Vec Ideal S128x128 .f32) (vT : Vec Ideal S1x128 .f32)
    (wr : Vec Ideal S128x1 .f32) (hT : ∀ d : Fin 128, vT (ix2 (0 : Fin 1) d) = wr (ix2 d (0 : Fin 1))) (j : Fin 8192) :
    k0_pay3 (F := Ideal) (k0_pay5 v6 v7) (k0_pay11 vT) (constant (F := Ideal) S1x8192 .f32 0x00000000#32) (ix2 (0 : Fin 1) j)
      = Ideal.exp (slope * er v6 v7 wr j) := by
  unfold k0_pay3
  refine (congrFun (shapeCast_self _ _) (ix2 (0 : Fin 1) j)).trans ?_
  exact congrArg (fun t => Ideal.exp (slope * t)) (pay1_apply v6 v7 vT wr hT j)

end Cert.KernelIdeal.Payload

end
-- ==== Proof.KIOutBlk.lean ====
/-
  The blocks of the moving windows of the fused graph-attention program at a later grid point, read at an index.
  Grid point t ≥ 1 works on row block t - 1 (rows 256 (t - 1) … 256 (t - 1) + 255): window 0 holds those rows of the
  adjacency matrix at columns 0 … 4095, window 1 the same rows at columns 4096 … 8191; the bias window holds the
  bias, which a host line before the region reshaped from 128 entries to one row of 128.
  A block's coordinate on an axis is always (block index) × (block size) + (coordinate inside the block); the block
  indices are the printed index maps, decided over the 33 grid points.
-/
import proofs.«177507_g11553462026822_cont_9to1c4b_334_26_alg».proof.Proof.KIData
import proofs.«177507_g11553462026822_cont_9to1c4b_334_26_alg».proof.Proof.KerPayload

set_option maxRecDepth 16384

noncomputable section

namespace Cert.KernelIdeal.Val

open Cert.KernelIdeal Cert.KernelIdeal.Gen Cert.KernelIdeal.Fr Cert.KernelIdeal.Payload Cert.Gat
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The row block a later grid point works on. -/
def Rof (t : Fin cfg0.N) (hz : t.val ≠ 0) : Fin 32 := ⟨t.val - 1, by have := t.isLt; have : cfg0.N = 33 := N_0; omega⟩

/-- The printed index maps over the grid: at a later point the adjacency windows and the output window sit at row
    block t - 1, the adjacency windows at column blocks 0 and 1; the bias window never moves. -/
theorem idx_facts : ∀ t : Fin cfg0.N,
    (t.val ≠ 0 → win0_0.index t (0 : Fin 2) = t.val - 1) ∧ win0_0.index t (1 : Fin 2) = 0
    ∧ (t.val ≠ 0 → win0_1.index t (0 : Fin 2) = t.val - 1) ∧ win0_1.index t (1 : Fin 2) = 1
    ∧ win0_6.index t (0 : Fin 2) = 0 ∧ win0_6.index t (1 : Fin 2) = 0
    ∧ (t.val ≠ 0 → win0_7.index t (0 : Fin 2) = t.val - 1) ∧ win0_7.index t (1 : Fin 2) = 0 :=
  (by decide +kernel : ∀ t : Fin grid0.N, _)

theorem blk0_apply (t : Fin cfg0.N) (hz : t.val ≠ 0) (r : Fin 256) (k : Fin 4096) :
    iblk (F := Ideal) m c 0 t (ix2 r k) = m ((c : Thread nD τ).loc main_arg1) (ix2 (row (Rof t hz) r) (lo k)) := by
  show V m c main_arg1 (((cfg0.win 0).blk t).view.emb (ix2 r k)) = _
  rw [V_main_arg1]
  refine congrArg _ (funext fun a => Fin.ext ?_)
  obtain ⟨e0, e1, -⟩ := idx_facts t
  match a with
  | ⟨0, _⟩ => show win0_0.index t (0 : Fin 2) * 256 + 1 * r.val = 256 * (t.val - 1) + r.val; rw [e0 hz]; omega
  | ⟨1, _⟩ => show win0_0.index t (1 : Fin 2) * 4096 + 1 * k.val = k.val; rw [e1]; omega

theorem blk1_apply (t : Fin cfg0.N) (hz : t.val ≠ 0) (r : Fin 256) (k : Fin 4096) :
    iblk (F := Ideal) m c 1 t (ix2 r k) = m ((c : Thread nD τ).loc main_arg1) (ix2 (row (Rof t hz) r) (hi k)) := by
  show V m c main_arg1 (((cfg0.win 1).blk t).view.emb (ix2 r k)) = _
  rw [V_main_arg1]
  refine congrArg _ (funext fun a => Fin.ext ?_)
  obtain ⟨-, -, e0, e1, -⟩ := idx_facts t
  match a with
  | ⟨0, _⟩ => show win0_1.index t (0 : Fin 2) * 256 + 1 * r.val = 256 * (t.val - 1) + r.val; rw [e0 hz]; omega
  | ⟨1, _⟩ => show win0_1.index t (1 : Fin 2) * 4096 + 1 * k.val = 4096 + k.val; rw [e1]; omega

/-- The bias as the region finds it: the host line before the region reshaped it to one row. -/
theorem V_bias : (V m c main_call0_v1 : S1x128.Idx → EReal)
    = shapeCast S1x128 (m ((c : Thread nD τ).loc main_arg5)) shapeCasts_S128_S1x128 := by
  dsimp only [V, hostOps0]
  after_results
  rfl

theorem blk6_apply (t : Fin cfg0.N) (d : Fin 128) :
    iblk (F := Ideal) m c 6 t (ix2 (0 : Fin 1) d) = m ((c : Thread nD τ).loc main_arg5) (ix1 d) := by
  show V m c main_call0_v1 (((cfg0.win 6).blk t).view.emb (ix2 (0 : Fin 1) d)) = _
  have he : ((cfg0.win 6).blk t).view.emb (ix2 (0 : Fin 1) d) = ix2 (0 : Fin 1) d := by
    funext a; apply Fin.ext
    obtain ⟨-, -, -, -, e0, e1, -⟩ := idx_facts t
    match a with
    | ⟨0, _⟩ => show win0_6.index t (0 : Fin 2) * 1 + 1 * 0 = 0; rw [e0]
    | ⟨1, _⟩ => show win0_6.index t (1 : Fin 2) * 128 + 1 * d.val = d.val; rw [e1]; omega
  rw [he, V_bias]
  refine (shapeCast_addUnit_apply ![128] _ shapeCasts_S128_S1x128 (ix2 (0 : Fin 1) d)).trans ?_
  refine congrArg _ (funext fun a => ?_)
  match a with
  | ⟨0, _⟩ => rfl

end Cert.KernelIdeal.Val

end
-- ==== Proof.KIOutOf.lean ====
/-
  From the scratch arrays to the output array of the fused graph-attention program.

  A later grid point t (t ≥ 1) stores ONE piece into the output window's buffer: the kernel's arithmetic applied to its
  loads — rows 256 (t - 1) … of the two scratch columns holding the exponentials of the source scores, the two
  scratch rows holding the exponentials of the target scores, the two adjacency blocks of its row block, the upper
  and the lower 4096 rows of the stored augmented features, and the bias row. Each load through a unit-stride
  rectangle of a whole buffer reads the buffer's contents at the shifted index, so, given what the first point left
  in the five scratch arrays (hypotheses here), the piece at (r, d) is the fused arrangement's output entry at
  (256 (t - 1) + r, d).

  The output window's blocks at t = 1 … 32 tile the 8192 rows (row i is in the block of point i / 256 + 1), every
  one of those points writes its block back, and each writes its block of ONE array: so the output array after the
  run is the fused arrangement's array of the arguments.
-/
import proofs.«177507_g11553462026822_cont_9to1c4b_334_26_alg».proof.Proof.KIData
import proofs.«177507_g11553462026822_cont_9to1c4b_334_26_alg».proof.Proof.KerPayload
import proofs.«177507_g11553462026822_cont_9to1c4b_334_26_alg».proof.Proof.KIOutBlk

set_option maxRecDepth 16384

noncomputable section

namespace Cert.KernelIdeal.Val

open Cert.KernelIdeal Cert.KernelIdeal.Gen Cert.KernelIdeal.Fr Cert.KernelIdeal.Payload Cert.Gat
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

theorem hzero2 : (![0, 0] : Fin 2 → Nat) = fun _ => 0 := funext fun a => by fin_cases a <;> rfl

/-- The printed offsets of the two row-factor loads over the grid: rows 256 (t - 1) … of the scratch column. -/
theorem koff_facts : ∀ t : Fin cfg0.N, t.val ≠ 0 →
    k0_off1 (grid0.coords t) (0 : Fin 2) = 256 * (t.val - 1) ∧ k0_off1 (grid0.coords t) (1 : Fin 2) = 0 :=
  (by decide +kernel : ∀ t : Fin grid0.N, _)

/-- A load through a unit-stride rectangle of a whole buffer whose contents read X reads X at the shifted index. -/
theorem ld_read_whole {κ : Kind} {sp : Space} {s : Shape} {e : EltTy} (M : Memref sig κ sp s e) (h : M.IsWhole)
    (X : s.Idx → Elt Ideal e) (off size : Fin s.rank → Nat) (inb : ∀ a, off a + size a ≤ s.size a)
    (y : (Rect.unit off size inb).shape.Idx) (k : s.Idx) (hk : ∀ a, (k a).val = off a + 1 * (y a).val) :
    M.view.readAt (Elt Ideal) (Rect.unit off size inb).toLoadRect (h.unread X) y = X k := by
  show (M.view.read (Elt Ideal) (h.unread X)) ((Rect.unit off size inb).toLoadRect.idx y) = X k
  rw [h.read_unread]
  exact congrArg X (funext fun a => Fin.ext (hk a).symm)

/-- At zero offsets the shifted index is the index. -/
theorem hk_zero2 {n0 n1 : Nat} (y : (⟨2, ![n0, n1]⟩ : Shape).Idx) :
    ∀ a : Fin 2, (y a).val = (![0, 0] : Fin 2 → Nat) a + 1 * (y a).val := by
  intro a
  match a with
  | ⟨0, _⟩ => show (y 0).val = 0 + 1 * (y 0).val; omega
  | ⟨1, _⟩ => show (y 1).val = 0 + 1 * (y 1).val; omega

section Out
variable (hS0 : ∀ (j : Fin 8192) (cc : Fin 256), S0 (F := Ideal) m c (ix2 j cc) = xaug (m ((c : Thread nD τ).loc main_arg0)) (m ((c : Thread nD τ).loc main_arg2)) j cc)
  (hS1 : ∀ i : Fin 8192, S1 (F := Ideal) m c (ix2 i (0 : Fin 1)) = Ideal.exp (el (m ((c : Thread nD τ).loc main_arg0)) (m ((c : Thread nD τ).loc main_arg2)) (m ((c : Thread nD τ).loc main_arg3)) i))
  (hS2 : ∀ i : Fin 8192, S2 (F := Ideal) m c (ix2 i (0 : Fin 1)) = Ideal.exp (slope * el (m ((c : Thread nD τ).loc main_arg0)) (m ((c : Thread nD τ).loc main_arg2)) (m ((c : Thread nD τ).loc main_arg3)) i))
  (hS3 : ∀ j : Fin 8192, S3 (F := Ideal) m c (ix2 (0 : Fin 1) j) = Ideal.exp (er (m ((c : Thread nD τ).loc main_arg0)) (m ((c : Thread nD τ).loc main_arg2)) (m ((c : Thread nD τ).loc main_arg4)) j))
  (hS4 : ∀ j : Fin 8192, S4 (F := Ideal) m c (ix2 (0 : Fin 1) j) = Ideal.exp (slope * er (m ((c : Thread nD τ).loc main_arg0)) (m ((c : Thread nD τ).loc main_arg2)) (m ((c : Thread nD τ).loc main_arg4)) j))
include hS0 hS1 hS2 hS3 hS4

set_option maxHeartbeats 1000000 in
/-- The block of 256 output rows a later point leaves in the output window: the fused arrangement's entries of
    its row block. -/
theorem out7_apply_of (t : Fin cfg0.N) (hz : t.val ≠ 0) (r : Fin 256) (d : Fin 128) :
    out7 (F := Ideal) m c t (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (Rof t hz) r) d) := by
  rw [out7_pos m c t hz]
  rw [View.read_writes_eq_canon _ _ _ (cover7 m c t hz)]
  unfold kernelRunR
  dsimp only
  sl_unfold_words
  rw [View.canon_unit_zero hzero2]
  obtain ⟨ko0, ko1⟩ := koff_facts t hz
  refine out_block_apply _ _ _ _ _ _ (Rof t hz) _ _ _ _ _ _ _ _ _ ?h9 ?h12 ?h13 ?h14 ?h24 ?h40 ?h29 ?h45 ?h54 r d
  case h9 =>
    intro r'
    refine (ld_read_whole scM1 (Memref.isWhole_whole _) (S1 m c) (k0_off1 (grid0.coords t)) S256x1.size _ (ix2 r' (0 : Fin 1))
      (ix2 (row (Rof t hz) r') (0 : Fin 1)) (fun a => ?_)).trans (hS1 (row (Rof t hz) r'))
    match a with
    | ⟨0, _⟩ => show 256 * (t.val - 1) + r'.val = k0_off1 (grid0.coords t) (0 : Fin 2) + 1 * r'.val; rw [ko0]; omega
    | ⟨1, _⟩ => show 0 = k0_off1 (grid0.coords t) (1 : Fin 2) + 1 * 0; rw [ko1]
  case h12 =>
    intro r'
    refine (ld_read_whole scM2 (Memref.isWhole_whole _) (S2 m c) (k0_off1 (grid0.coords t)) S256x1.size _ (ix2 r' (0 : Fin 1))
      (ix2 (row (Rof t hz) r') (0 : Fin 1)) (fun a => ?_)).trans (hS2 (row (Rof t hz) r'))
    match a with
    | ⟨0, _⟩ => show 256 * (t.val - 1) + r'.val = k0_off1 (grid0.coords t) (0 : Fin 2) + 1 * r'.val; rw [ko0]; omega
    | ⟨1, _⟩ => show 0 = k0_off1 (grid0.coords t) (1 : Fin 2) + 1 * 0; rw [ko1]
  case h13 =>
    intro j
    exact (ld_read_whole scM3 (Memref.isWhole_whole _) (S3 m c) ![0, 0] S1x8192.size _ (ix2 (0 : Fin 1) j) (ix2 (0 : Fin 1) j)
      (hk_zero2 _)).trans (hS3 j)
  case h14 =>
    intro j
    exact (ld_read_whole scM4 (Memref.isWhole_whole _) (S4 m c) ![0, 0] S1x8192.size _ (ix2 (0 : Fin 1) j) (ix2 (0 : Fin 1) j)
      (hk_zero2 _)).trans (hS4 j)
  case h24 =>
    intro r' k
    exact (ld_read_whole (ms0 t) (hs0 t) (iblk m c 0 t) ![0, 0] S256x4096.size _ (ix2 r' k) (ix2 r' k) (hk_zero2 _)).trans
      (blk0_apply m c t hz r' k)
  case h40 =>
    intro r' k
    exact (ld_read_whole (ms1 t) (hs1 t) (iblk m c 1 t) ![0, 0] S256x4096.size _ (ix2 r' k) (ix2 r' k) (hk_zero2 _)).trans
      (blk1_apply m c t hz r' k)
  case h29 =>
    intro k cc
    refine (ld_read_whole scM0 (Memref.isWhole_whole _) (S0 m c) ![0, 0] S4096x256.size _ (ix2 k cc) (ix2 (lo k) cc)
      (fun a => ?_)).trans (hS0 (lo k) cc)
    match a with
    | ⟨0, _⟩ => show k.val = 0 + 1 * k.val; omega
    | ⟨1, _⟩ => show cc.val = 0 + 1 * cc.val; omega
  case h45 =>
    intro k cc
    refine (ld_read_whole scM0 (Memref.isWhole_whole _) (S0 m c) ![4096, 0] S4096x256.size _ (ix2 k cc) (ix2 (hi k) cc)
      (fun a => ?_)).trans (hS0 (hi k) cc)
    match a with
    | ⟨0, _⟩ => show 4096 + k.val = 4096 + 1 * k.val; omega
    | ⟨1, _⟩ => show cc.val = 0 + 1 * cc.val; omega
  case h54 =>
    intro d'
    exact (ld_read_whole (ms6 t) (hs6 t) (iblk m c 6 t) ![0, 0] S1x128.size _ (ix2 (0 : Fin 1) d') (ix2 (0 : Fin 1) d')
      (hk_zero2 _)).trans (blk6_apply m c t d')

end Out

section Final
variable (hout : ∀ (t : Fin cfg0.N) (hz : t.val ≠ 0) (r : Fin 256) (d : Fin 128),
  out7 (F := Ideal) m c t (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (Rof t hz) r) d))
include hout

/-- What a later point writes back is its block of the specification's array. -/
theorem flushed7_eq (t : Fin cfg0.N) (hf : (cfg0.win 7).flush t = true) :
    (dats (F := Ideal) m 0 c).flushed 7 t = ((cfg0.win 7).blk t).view.read (Elt Ideal) (kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have hz : t.val ≠ 0 := fun h0 => by rw [noFlush7 t h0] at hf; exact Bool.noConfusion hf
  show (cfg0.win 7).cut (grid0.coords t) ((dats (F := Ideal) m 0 c).after 7 t) = _
  rw [after7]
  funext j
  obtain ⟨r, d, rfl⟩ : ∃ (r : Fin 256) (d : Fin 128), j = ix2 r d := ⟨j 0, j 1, eq_ix2 j⟩
  show out7 (F := Ideal) m c t (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb (ix2 r d))
  rw [hout t hz r d]
  refine congrArg _ (funext fun a => Fin.ext ?_)
  obtain ⟨-, -, -, -, -, -, e0, e1⟩ := idx_facts t
  match a with
  | ⟨0, _⟩ => show 256 * (t.val - 1) + r.val = win0_7.index t (0 : Fin 2) * 256 + 1 * r.val; rw [e0 hz]; omega
  | ⟨1, _⟩ => show d.val = win0_7.index t (1 : Fin 2) * 128 + 1 * d.val; rw [e1]; omega

end Final

/-- An index of the output array is in point t's block iff each coordinate is in the block's range on its axis. -/
theorem mem_blk7 (t : Fin cfg0.N) (i : S8192x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_v0).slice (win0_7.rect t)).set ↔ _
  rw [View.set_slice_whole, Rect.mem_set_unit]
  exact Iff.rfl

/-- The 32 later points' blocks tile the 8192 rows. -/
theorem cover_out (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 33 := N_0
  let t : Fin cfg0.N := ⟨(i 0).val / 256 + 1, by omega⟩
  have hz : t.val ≠ 0 := Nat.succ_ne_zero _
  obtain ⟨-, -, -, -, -, -, e0, e1⟩ := idx_facts t
  refine ⟨t, flush7 t hz, (mem_blk7 t i).mpr fun a => ?_⟩
  have ht : t.val - 1 = (i 0).val / 256 := by show (i 0).val / 256 + 1 - 1 = _; omega
  match a with
  | ⟨0, _⟩ => show win0_7.index t (0 : Fin 2) * 256 ≤ (i 0).val ∧ (i 0).val < win0_7.index t (0 : Fin 2) * 256 + 256; rw [e0 hz, ht]; omega
  | ⟨1, _⟩ => show win0_7.index t (1 : Fin 2) * 128 ≤ (i 1).val ∧ (i 1).val < win0_7.index t (1 : Fin 2) * 128 + 128; rw [e1]; omega

section Final2
variable (hout : ∀ (t : Fin cfg0.N) (hz : t.val ≠ 0) (r : Fin 256) (d : Fin 128),
  out7 (F := Ideal) m c t (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (Rof t hz) r) d))
include hout

/-- The output array after the run is the fused arrangement's array of the arguments. -/
theorem final7_of : (dats (F := Ideal) m 0 c).arrAt 7 cfg0.N = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats (F := Ideal) m 0 c).arrAt_eq_of_cover 7 _ (fun t hf => flushed7_eq m c hout t hf) (cover_out)

end Final2

end Cert.KernelIdeal.Val

end
-- ==== Proof.KIScratch.lean ====
/-
  What the five scratch arrays hold after the first grid point, index by index: the blocks of the whole-array
  windows are the arrays themselves (one of them through the host's transpose), and each stored piece read back is
  the kernel's arithmetic at that index.
-/
import proofs.«177507_g11553462026822_cont_9to1c4b_334_26_alg».proof.Proof.KIData
import proofs.«177507_g11553462026822_cont_9to1c4b_334_26_alg».proof.Proof.KerPayload
import Idealize.ShloMosaic.Lib.Pipeline.Value
import Idealize.ShloMosaic.Lib.Tactic

set_option maxRecDepth 16384

noncomputable section

open Cert.KernelIdeal Cert.KernelIdeal.Gen Cert.KernelIdeal.Fr Cert.KernelIdeal.Payload Cert.Gat
open Idealize.ShloMosaic Idealize.ShloMosaic.ValueIdx Idealize.ShloMosaic.TcCoe Idealize.ShloMosaic.Tactic Idealize.SL.Sem
open scoped BigOperators

namespace Cert.KernelIdeal.Val

variable (m : (ℓ : Loc nD τ sig) → Buf (Elt Ideal) ℓ) (c : Dev nD)

/-- The zero offset of a whole-buffer access. -/
theorem hz : (![0, 0] : Fin 2 → Nat) = fun _ => 0 := funext fun a => by fin_cases a <;> rfl

/-! ## The whole-array windows' blocks are the arrays -/

/-- The windows that hold a whole array sit at block index zero at every grid point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk2_apply (t : Fin cfg0.N) (j : Fin 8192) (d : Fin 128) :
    iblk (F := Ideal) m c 2 t (ix2 j d) = m ((c : Thread nD τ).loc main_arg0) (ix2 j d) := by
  rw [← V_main_arg0 m c]
  show V m c main_arg0 (((cfg0.win 2).blk t).view.emb (ix2 j d)) = V m c main_arg0 (ix2 j d)
  obtain ⟨e0, e1, -⟩ := idx_whole t
  refine congrArg _ (funext fun a => Fin.ext ?_)
  match a with
  | ⟨0, _⟩ => show win0_2.index t (0 : Fin 2) * 8192 + 1 * j.val = j.val; omega
  | ⟨1, _⟩ => show win0_2.index t (1 : Fin 2) * 128 + 1 * d.val = d.val; omega

theorem blk3_apply (t : Fin cfg0.N) (k d : Fin 128) :
    iblk (F := Ideal) m c 3 t (ix2 k d) = m ((c : Thread nD τ).loc main_arg2) (ix2 k d) := by
  rw [← V_main_arg2 m c]
  show V m c main_arg2 (((cfg0.win 3).blk t).view.emb (ix2 k d)) = V m c main_arg2 (ix2 k d)
  obtain ⟨-, -, e0, e1, -⟩ := idx_whole t
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * d.val = d.val; omega

theorem blk4_apply (t : Fin cfg0.N) (d : Fin 128) :
    iblk (F := Ideal) m c 4 t (ix2 d (0 : Fin 1)) = m ((c : Thread nD τ).loc main_arg3) (ix2 d (0 : Fin 1)) := by
  rw [← V_main_arg3 m c]
  show V m c main_arg3 (((cfg0.win 4).blk t).view.emb (ix2 d (0 : Fin 1))) = V m c main_arg3 (ix2 d (0 : Fin 1))
  obtain ⟨-, -, -, -, e0, e1, -⟩ := idx_whole t
  refine congrArg _ (funext fun a => Fin.ext ?_)
  match a with
  | ⟨0, _⟩ => show win0_4.index t (0 : Fin 2) * 128 + 1 * d.val = d.val; omega
  | ⟨1, _⟩ => show win0_4.index t (1 : Fin 2) * 1 + 1 * 0 = 0; omega

/-- The transposed target attention vector: the host line before the region writes it from the argument. -/
theorem V_call0_v0 :
    (V m c main_call0_v0 : S1x128.Idx → EReal)
      = transpose S1x128 [1, 0] (m ((c : Thread nD τ).loc main_arg4)) transposes_S128x1_S1x128_1_0 := by
  dsimp only [V, hostOps0]
  after_results
  rfl

theorem blk5_apply (t : Fin cfg0.N) (d : Fin 128) :
    iblk (F := Ideal) m c 5 t (ix2 (0 : Fin 1) d) = m ((c : Thread nD τ).loc main_arg4) (ix2 d (0 : Fin 1)) := by
  refine Eq.trans ?_ (transpose_ix2_apply (m ((c : Thread nD τ).loc main_arg4)) transposes_S128x1_S1x128_1_0 (0 : Fin 1) d)
  rw [← V_call0_v0 m c]
  show V m c main_call0_v0 (((cfg0.win 5).blk t).view.emb (ix2 (0 : Fin 1) d)) = V m c main_call0_v0 (ix2 (0 : Fin 1) d)
  obtain ⟨-, -, -, -, -, -, e0, e1⟩ := idx_whole t
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * d.val = d.val; omega

/-! ## The blocks as whole functions -/

theorem blk2_eq (t : Fin cfg0.N) :
    (iblk (F := Ideal) m c 2 t : S8192x128.Idx → EReal) = m ((c : Thread nD τ).loc main_arg0) :=
  funext fun q => by
    obtain ⟨a, b, rfl⟩ : ∃ (a : Fin 8192) (b : Fin 128), q = ix2 a b := ⟨q 0, q 1, eq_ix2 q⟩
    exact blk2_apply m c t a b

theorem blk3_eq (t : Fin cfg0.N) :
    (iblk (F := Ideal) m c 3 t : S128x128.Idx → EReal) = m ((c : Thread nD τ).loc main_arg2) :=
  funext fun q => by
    obtain ⟨a, b, rfl⟩ : ∃ (a : Fin 128) (b : Fin 128), q = ix2 a b := ⟨q 0, q 1, eq_ix2 q⟩
    exact blk3_apply m c t a b

theorem blk4_eq (t : Fin cfg0.N) :
    (iblk (F := Ideal) m c 4 t : S128x1.Idx → EReal) = m ((c : Thread nD τ).loc main_arg3) :=
  funext fun q => by
    obtain ⟨a, b, rfl⟩ : ∃ (a : Fin 128) (b : Fin 1), q = ix2 a b := ⟨q 0, q 1, eq_ix2 q⟩
    obtain rfl : b = 0 := Subsingleton.elim _ _
    exact blk4_apply m c t a

/-! ## The stored pieces read back -/

theorem S1_eq : S1 (F := Ideal) m c = k0_pay9 (iblk m c 2 t0) (iblk m c 3 t0) (iblk m c 4 t0) := by
  unfold S1
  rw [View.read_writes_eq_canon _ _ _ (scover1 m c)]
  unfold kernelRunP
  dsimp only
  rw [View.canon_unit_zero hz]
  simp only [View.readAt_eq_ld, (hs2 t0).read_unread, (hs3 t0).read_unread, (hs4 t0).read_unread,
    View.ld_unit_zero (S := S8192x128) hz, View.ld_unit_zero (S := S128x128) hz, View.ld_unit_zero (S := S128x1) hz]

/-- Scratch array 1: the exponential of each node's source score. -/
theorem S1_apply (i : Fin 8192) :
    S1 (F := Ideal) m c (ix2 i (0 : Fin 1))
      = Ideal.exp (el (m ((c : Thread nD τ).loc main_arg0)) (m ((c : Thread nD τ).loc main_arg2))
          (m ((c : Thread nD τ).loc main_arg3)) i) := by
  rw [S1_eq]
  refine (pay9_apply (iblk m c 2 t0) (iblk m c 3 t0) (iblk m c 4 t0) i).trans ?_
  rw [blk2_eq, blk3_eq, blk4_eq]

theorem S2_eq : S2 (F := Ideal) m c = k0_pay10 (iblk m c 2 t0) (iblk m c 3 t0) (iblk m c 4 t0) := by
  unfold S2
  rw [View.read_writes_eq_canon _ _ _ (scover2 m c)]
  unfold kernelRunP
  dsimp only
  rw [View.canon_unit_zero hz]
  simp only [View.readAt_eq_ld, (hs2 t0).read_unread, (hs3 t0).read_unread, (hs4 t0).read_unread,
    View.ld_unit_zero (S := S8192x128) hz, View.ld_unit_zero (S := S128x128) hz, View.ld_unit_zero (S := S128x1) hz]

/-- Scratch array 2: the exponential of each node's source score scaled by the ramp's slope. -/
theorem S2_apply (i : Fin 8192) :
    S2 (F := Ideal) m c (ix2 i (0 : Fin 1))
      = Ideal.exp (slope * el (m ((c : Thread nD τ).loc main_arg0)) (m ((c : Thread nD τ).loc main_arg2))
          (m ((c : Thread nD τ).loc main_arg3)) i) := by
  rw [S2_eq]
  refine (pay10_apply (iblk m c 2 t0) (iblk m c 3 t0) (iblk m c 4 t0) i).trans ?_
  rw [blk2_eq, blk3_eq, blk4_eq]

theorem S3_eq : S3 (F := Ideal) m c
    = k0_pay2 (k0_pay5 (iblk m c 2 t0) (iblk m c 3 t0)) (k0_pay11 (iblk m c 5 t0))
        (constant (F := Ideal) S1x8192 .f32 0x00000000#32) := by
  unfold S3
  rw [View.read_writes_eq_canon _ _ _ (scover3 m c)]
  unfold kernelRunP
  dsimp only
  sl_unfold_words
  rw [View.canon_unit_zero hz]
  simp only [View.readAt_eq_ld, (hs2 t0).read_unread, (hs3 t0).read_unread, (hs5 t0).read_unread,
    View.ld_unit_zero (S := S8192x128) hz, View.ld_unit_zero (S := S128x128) hz, View.ld_unit_zero (S := S1x128) hz]

/-- Scratch array 3: the exponential of each node's target score. -/
theorem S3_apply (j : Fin 8192) :
    S3 (F := Ideal) m c (ix2 (0 : Fin 1) j)
      = Ideal.exp (er (m ((c : Thread nD τ).loc main_arg0)) (m ((c : Thread nD τ).loc main_arg2))
          (m ((c : Thread nD τ).loc main_arg4)) j) := by
  rw [S3_eq]
  refine (pay2_apply (iblk m c 2 t0) (iblk m c 3 t0) (iblk m c 5 t0) (m ((c : Thread nD τ).loc main_arg4))
    (blk5_apply m c t0) j).trans ?_
  rw [blk2_eq, blk3_eq]

theorem S4_eq : S4 (F := Ideal) m c
    = k0_pay3 (k0_pay5 (iblk m c 2 t0) (iblk m c 3 t0)) (k0_pay11 (iblk m c 5 t0))
        (constant (F := Ideal) S1x8192 .f32 0x00000000#32) := by
  unfold S4
  rw [View.read_writes_eq_canon _ _ _ (scover4 m c)]
  unfold kernelRunP
  dsimp only
  sl_unfold_words
  rw [View.canon_unit_zero hz]
  simp only [View.readAt_eq_ld, (hs2 t0).read_unread, (hs3 t0).read_unread, (hs5 t0).read_unread,
    View.ld_unit_zero (S := S8192x128) hz, View.ld_unit_zero (S := S128x128) hz, View.ld_unit_zero (S := S1x128) hz]

/-- Scratch array 4: the exponential of each node's target score scaled by the ramp's slope. -/
theorem S4_apply (j : Fin 8192) :
    S4 (F := Ideal) m c (ix2 (0 : Fin 1) j)
      = Ideal.exp (slope * er (m ((c : Thread nD τ).loc main_arg0)) (m ((c : Thread nD τ).loc main_arg2))
          (m ((c : Thread nD τ).loc main_arg4)) j) := by
  rw [S4_eq]
  refine (pay3_apply (iblk m c 2 t0) (iblk m c 3 t0) (iblk m c 5 t0) (m ((c : Thread nD τ).loc main_arg4))
    (blk5_apply m c t0) j).trans ?_
  rw [blk2_eq, blk3_eq]

/-! ## Scratch array 0: the projected features beside a column of ones -/

theorem xaug_of_lt (h : SNxD.Idx → EReal) (W : SDxD.Idx → EReal) (k : Fin 8192) (cc : Fin 256) (hc : cc.val < 128) :
    xaug h W k cc = proj h W k ⟨cc.val, hc⟩ := by
  unfold xaug
  rw [dif_pos hc]

theorem xaug_of_ge (h : SNxD.Idx → EReal) (W : SDxD.Idx → EReal) (k : Fin 8192) (cc : Fin 256) (e : Fin 128)
    (hc : cc.val = 128 + e.val) : xaug h W k cc = if e.val = 0 then 1 else 0 := by
  unfold xaug
  rw [dif_neg (by omega)]
  by_cases h0 : e.val = 0
  · rw [if_pos h0, if_pos (by omega)]
  · rw [if_neg h0, if_neg (by omega)]

/-- Scratch array 0: columns 0..127 the projected features, column 128 ones, the rest zeros. -/
theorem S0_apply (j : Fin 8192) (cc : Fin 256) :
    S0 (F := Ideal) m c (ix2 j cc)
      = xaug (m ((c : Thread nD τ).loc main_arg0)) (m ((c : Thread nD τ).loc main_arg2)) j cc := by
  unfold S0
  rw [View.read_writes_eq_canon _ _ _ (scover0 m c)]
  refine View.canon_apply_of_pieces
    (fun q : S8192x256.Idx => xaug (m ((c : Thread nD τ).loc main_arg0)) (m ((c : Thread nD τ).loc main_arg2)) (q 0) (q 1))
    _ ?_ (ix2 j cc) (scover0 m c (ix2 j cc))
  unfold kernelRunP
  dsimp only
  intro p hp x
  simp only [List.mem_cons, List.not_mem_nil, or_false] at hp
  rcases hp with rfl | rfl
  · -- the second store: the column of ones and its zeros, at columns 128 + b
    obtain ⟨a, b, rfl⟩ : ∃ (a : Fin 8192) (b : Fin 128), x = ix2 a b := ⟨x 0, x 1, eq_ix2 x⟩
    refine (pay7_apply a b).trans ?_
    refine (xaug_of_ge _ _ _ _ b ?_).symm
    show 128 + 1 * b.val = 128 + b.val
    omega
  · -- the first store: the projected features, at columns b < 128
    obtain ⟨a, b, rfl⟩ : ∃ (a : Fin 8192) (b : Fin 128), x = ix2 a b := ⟨x 0, x 1, eq_ix2 x⟩
    simp only [View.readAt_eq_ld, (hs2 t0).read_unread, (hs3 t0).read_unread,
      View.ld_unit_zero (S := S8192x128) hz, View.ld_unit_zero (S := S128x128) hz]
    refine (pay6_apply (iblk m c 2 t0) (iblk m c 3 t0) a b).trans ?_
    rw [blk2_eq, blk3_eq]
    have hK : ((Rect.unit (s := S8192x256) ![0, 0] ![8192, 128] inb_S8192x256_S8192x128_0_0).emb (ix2 a b) 0).val = a.val := by
      show 0 + 1 * a.val = a.val
      omega
    have hC : ((Rect.unit (s := S8192x256) ![0, 0] ![8192, 128] inb_S8192x256_S8192x128_0_0).emb (ix2 a b) 1).val = b.val := by
      show 0 + 1 * b.val = b.val
      omega
    have hK' : ((Rect.unit (s := S8192x256) ![0, 0] ![8192, 128] inb_S8192x256_S8192x128_0_0).emb (ix2 a b) 0 : Fin 8192) = a :=
      Fin.ext hK
    have hC' : ((Rect.unit (s := S8192x256) ![0, 0] ![8192, 128] inb_S8192x256_S8192x128_0_0).emb (ix2 a b) 1 : Fin 256)
        = ⟨b.val, by have := b.isLt; omega⟩ := Fin.ext hC
    refine Eq.symm (Eq.trans (congrArg₂ (xaug (m ((c : Thread nD τ).loc main_arg0)) (m ((c : Thread nD τ).loc main_arg2))) hK' hC') ?_)
    exact xaug_lt _ _ a b

end Cert.KernelIdeal.Val

end
-- ==== Proof.KIOut.lean ====
/-
  The output of the fused graph-attention program: the block a later grid point leaves in the output window, at an
  index, and the output array after the run — both the fused arrangement's array of the arguments. The general
  statements (over what the first point left in the five scratch arrays) meet here the scratch arrays' values.
-/
import proofs.«177507_g11553462026822_cont_9to1c4b_334_26_alg».proof.Proof.KIOutOf
import proofs.«177507_g11553462026822_cont_9to1c4b_334_26_alg».proof.Proof.KIScratch

noncomputable section

namespace Cert.KernelIdeal.Val

open Cert.KernelIdeal Cert.KernelIdeal.Gen Cert.KernelIdeal.Fr Cert.KernelIdeal.Payload Cert.Gat
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The block of 256 output rows a later point leaves in the output window: the fused arrangement's entries of
    its row block. -/
theorem out7_apply (t : Fin cfg0.N) (hz : t.val ≠ 0) (r : Fin 256) (d : Fin 128) :
    out7 (F := Ideal) m c t (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row (Rof t hz) r) d) :=
  out7_apply_of m c (S0_apply m c) (S1_apply m c) (S2_apply m c) (S3_apply m c) (S4_apply m c) t hz r d

/-- The output array after the run is the fused arrangement's array of the arguments. -/
theorem final7 : (dats (F := Ideal) m 0 c).arrAt 7 cfg0.N = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  final7_of m c (out7_apply m c)

end Cert.KernelIdeal.Val

end
-- ==== Proof.RefRun.lean ====
/-
  The plain array program's run, read back.

  The program is a straight line of 41 host operations once its two local functions (the leaky ramp, which
  itself calls a select, and the masking select) are written out at their call sites.  Every weakly fair
  execution terminates; the result buffer then holds the operations' composed term `resultTerm` of the six
  argument arrays, and the arguments are unchanged.  The composed term is stated in named pieces, one per
  stage of the computation:
    x = h W,  the two score vectors,  the score matrix s i j = el i + er j,  the leaky ramp,
    the edge mask (adj clipped at 1, then compared with 0),  the masked exponential a,
    the floored row sum of |a|,  and  out = (a / rowsum) x + b.
-/
import proofs.«177507_g11553462026822_cont_9to1c4b_334_26_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 41 operations, in order: those of the two local functions at their call sites, over the calls' own buffers. -/
abbrev ops : List (HloOp τ sig (Elt F)) :=
  [ nullary main_c (constantI S_ 32 1#32),
    unary main_c main_v0 (broadcastInDim S8192x8192 ![] bcast_S_S8192x8192 : (⟨S_, .i32⟩ : BufTy).Contents (Elt F) → (⟨S8192x8192, .i32⟩ : BufTy).Contents (Elt F)),
    binary main_arg1 main_v0 main_v1 (minsi : (⟨S8192x8192, .i32⟩ : BufTy).Contents (Elt F) → (⟨S8192x8192, .i32⟩ : BufTy).Contents (Elt F) → (⟨S8192x8192, .i32⟩ : BufTy).Contents (Elt F)),
    binary main_arg0 main_arg2 main_v2 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v2 main_arg3 main_v3 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    reshape main_v3 main_v4 rfl shapeCasts_S8192x1_S8192,
    binary main_v2 main_arg4 main_v5 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    reshape main_v5 main_v6 rfl shapeCasts_S8192x1_S8192,
    unary main_v4 main_v7 (broadcastInDim S8192x1 ![0] bcast_S8192_S8192x1_0 : (⟨S8192, .f32⟩ : BufTy).Contents (Elt F) → (⟨S8192x1, .f32⟩ : BufTy).Contents (Elt F)),
    unary main_v6 main_v8 (broadcastInDim S1x8192 ![1] bcast_S8192_S1x8192_1 : (⟨S8192, .f32⟩ : BufTy).Contents (Elt F) → (⟨S1x8192, .f32⟩ : BufTy).Contents (Elt F)),
    unary main_v7 main_v9 (broadcastInDim S8192x8192 ![0, 1] bcast_S8192x1_S8192x8192_0_1 : (⟨S8192x1, .f32⟩ : BufTy).Contents (Elt F) → (⟨S8192x8192, .f32⟩ : BufTy).Contents (Elt F)),
    unary main_v8 main_v10 (broadcastInDim S8192x8192 ![0, 1] bcast_S1x8192_S8192x8192_0_1 : (⟨S1x8192, .f32⟩ : BufTy).Contents (Elt F) → (⟨S8192x8192, .f32⟩ : BufTy).Contents (Elt F)),
    binary main_v9 main_v10 main_v11 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v11 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v11 : TRef sig ⟨S8192x8192, .f32⟩) main_call0.v4 mulf,
    TRef.ternary main_call0.v1 (.of main_v11 : TRef sig ⟨S8192x8192, .f32⟩) main_call0.v4 main_call0.call0.v0 select,
    unary main_v12 main_v13 (Host.exp : (⟨S8192x8192, .f32⟩ : BufTy).Contents (Elt F) → (⟨S8192x8192, .f32⟩ : BufTy).Contents (Elt F)),
    nullary main_c_0 (constantI S_ 32 0#32),
    unary main_c_0 main_v14 (broadcastInDim S8192x8192 ![] bcast_S_S8192x8192 : (⟨S_, .i32⟩ : BufTy).Contents (Elt F) → (⟨S8192x8192, .i32⟩ : BufTy).Contents (Elt F)),
    binary main_v1 main_v14 main_v15 (cmpi .sgt : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0x00000000#32),
    TRef.unary (.of main_cst_1 : TRef sig ⟨S_, .f32⟩) main_call1.v0 (broadcastInDim S8192x8192 ![] bcast_S_S8192x8192),
    TRef.ternary (.of main_v15 : TRef sig ⟨S8192x8192, .i1⟩) (.of main_v13 : TRef sig ⟨S8192x8192, .f32⟩) main_call1.v0 main_call1.v1 select,
    unary main_v16 main_v17 (Host.absf : (⟨S8192x8192, .f32⟩ : BufTy).Contents (Elt F) → (⟨S8192x8192, .f32⟩ : BufTy).Contents (Elt F)),
    nullary main_cst_2 (constant S_ .f32 0x00000000#32),
    binary main_v17 main_cst_2 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    nullary main_cst_3 (constant S_ .f32 0x2B8CBCCC#32),
    unary main_cst_3 main_v20 (broadcastInDim S8192x1 ![] bcast_S_S8192x1 : (⟨S_, .f32⟩ : BufTy).Contents (Elt F) → (⟨S8192x1, .f32⟩ : BufTy).Contents (Elt F)),
    binary main_v19 main_v20 main_v21 (maximumf : (⟨S8192x1, .f32⟩ : BufTy).Contents (Elt F) → (⟨S8192x1, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v16 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v2 main_v24 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (addf : (⟨S8192x128, .f32⟩ : BufTy).Contents (Elt F) → (⟨S8192x128, .f32⟩ : BufTy).Contents (Elt F) → (⟨S8192x128, .f32⟩ : BufTy).Contents (Elt F)) ]

-- forty-one binds re-associated: the rewrite under the chain recurses once per statement
set_option maxRecDepth 2048 in
/-- The program is that straight line: the local functions unfolded at their calls, sequencing re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., binary_bufs_sub .., reshape_bufs_sub .., binary_bufs_sub .., reshape_bufs_sub .., unary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., ternary_bufs_sub .., unary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub ..⟩

/-! ## The composed term, in named pieces -/

section Term

/-- The projected features `x = h W`. -/
def tX (h : (⟨S8192x128, .f32⟩ : BufTy).Contents (Elt F)) (W : (⟨S128x128, .f32⟩ : BufTy).Contents (Elt F)) : (⟨S8192x128, .f32⟩ : BufTy).Contents (Elt F) :=
  Host.dotGeneral dot_S8192x128_S128x128_S8192x128_1_0_0_1_n_n none h W

/-- A score vector: `x` contracted with an attention vector, the unit column axis dropped. -/
def tScore (x : (⟨S8192x128, .f32⟩ : BufTy).Contents (Elt F)) (w : (⟨S128x1, .f32⟩ : BufTy).Contents (Elt F)) : (⟨S8192, .f32⟩ : BufTy).Contents (Elt F) :=
  shapeCast S8192 (Host.dotGeneral dot_S8192x128_S128x1_S8192x1_1_0_0_1_n_n none x w) shapeCasts_S8192x1_S8192

/-- The score matrix: the source scores down the columns plus the target scores along the rows. -/
def tS (el er : (⟨S8192, .f32⟩ : BufTy).Contents (Elt F)) : (⟨S8192x8192, .f32⟩ : BufTy).Contents (Elt F) :=
  addf (broadcastInDim S8192x8192 ![0, 1] bcast_S8192x1_S8192x8192_0_1 (broadcastInDim S8192x1 ![0] bcast_S8192_S8192x1_0 el))
       (broadcastInDim S8192x8192 ![0, 1] bcast_S1x8192_S8192x8192_0_1 (broadcastInDim S1x8192 ![1] bcast_S8192_S1x8192_1 er))

/-- The leaky ramp, entry by entry: `s` where `s ≥ 0`, the slope times `s` elsewhere. -/
def tLeaky (s : (⟨S8192x8192, .f32⟩ : BufTy).Contents (Elt F)) : (⟨S8192x8192, .f32⟩ : BufTy).Contents (Elt F) :=
  select (cmpf .oge s (broadcastInDim S8192x8192 ![] bcast_S_S8192x8192 (constant S_ .f32 0x00000000#32)))
    s (mulf (broadcastInDim S8192x8192 ![] bcast_S_S8192x8192 (constant S_ .f32 0x3E4CCCCD#32)) s)

/-- The edge mask: the adjacency word clipped at one, then compared with zero. -/
def tMask (adj : (⟨S8192x8192, .i32⟩ : BufTy).Contents (Elt F)) : (⟨S8192x8192, .i1⟩ : BufTy).Contents (Elt F) :=
  cmpi .sgt (minsi adj (broadcastInDim S8192x8192 ![] bcast_S_S8192x8192 (constantI S_ 32 1#32)))
    (broadcastInDim S8192x8192 ![] bcast_S_S8192x8192 (constantI S_ 32 0#32))

/-- The unnormalised attention weights: the exponential of the ramp on the edges, zero elsewhere. -/
def tA (mask : (⟨S8192x8192, .i1⟩ : BufTy).Contents (Elt F)) (s : (⟨S8192x8192, .f32⟩ : BufTy).Contents (Elt F)) : (⟨S8192x8192, .f32⟩ : BufTy).Contents (Elt F) :=
  select mask (Host.exp (tLeaky s)) (broadcastInDim S8192x8192 ![] bcast_S_S8192x8192 (constant S_ .f32 0x00000000#32))

/-- The row sums of absolute values, floored, as a column. -/
def tDen (a : (⟨S8192x8192, .f32⟩ : BufTy).Contents (Elt F)) : (⟨S8192x1, .f32⟩ : BufTy).Contents (Elt F) :=
  maximumf
    (broadcastInDim S8192x1 ![0] bcast_S8192_S8192x1_0
      (Host.reduceAdd (Host.absf a) (constant S_ .f32 0x00000000#32) reducesTo_S8192x8192_S8192_d1 h_S_))
    (broadcastInDim S8192x1 ![] bcast_S_S8192x1 (constant S_ .f32 0x2B8CBCCC#32))

/-- The output: the normalised weights contracted with `x`, plus the bias along the rows. -/
def tOut (a : (⟨S8192x8192, .f32⟩ : BufTy).Contents (Elt F)) (x : (⟨S8192x128, .f32⟩ : BufTy).Contents (Elt F)) (b : (⟨S128, .f32⟩ : BufTy).Contents (Elt F)) : (⟨S8192x128, .f32⟩ : BufTy).Contents (Elt F) :=
  addf (Host.dotGeneral dot_S8192x8192_S8192x128_S8192x128_1_0_0_1_n_n none
          (Host.divf a (broadcastInDim S8192x8192 ![0, 1] bcast_S8192x1_S8192x8192_0_1 (tDen a))) x)
       (broadcastInDim S8192x128 ![0, 1] bcast_S1x128_S8192x128_0_1 (broadcastInDim S1x128 ![1] bcast_S128_S1x128_1 b))

/-- The whole program as one function of its six arguments. -/
def resultTerm (h : (⟨S8192x128, .f32⟩ : BufTy).Contents (Elt F)) (adj : (⟨S8192x8192, .i32⟩ : BufTy).Contents (Elt F)) (W : (⟨S128x128, .f32⟩ : BufTy).Contents (Elt F)) (Wl Wr : (⟨S128x1, .f32⟩ : BufTy).Contents (Elt F)) (b : (⟨S128, .f32⟩ : BufTy).Contents (Elt F)) :
    (⟨S8192x128, .f32⟩ : BufTy).Contents (Elt F) :=
  tOut (tA (tMask adj) (tS (tScore (tX h W) Wl) (tScore (tX h W) Wr))) (tX h W) b

end Term

/-! ## The fold of the operations, read at the result and at the arguments -/

/-- The fold of the 41 operations over any contents, read at the result buffer, is the composed term of the contents
    at the six argument buffers: each operation's result read at its own buffer is its function of its operands'
    contents, and at every other buffer what was there. -/
theorem result_eq (V : Valuation τ sig (Elt F)) :
    after ops V (main_v27 : DevRef τ sig) = resultTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

/-- No operation writes argument 0. -/
theorem arg0_eq (V : Valuation τ sig (Elt F)) : after ops V (main_arg0 : DevRef τ sig) = V (main_arg0 : DevRef τ sig) := by
  after_results_simp
/-- No operation writes argument 1. -/
theorem arg1_eq (V : Valuation τ sig (Elt F)) : after ops V (main_arg1 : DevRef τ sig) = V (main_arg1 : DevRef τ sig) := by
  after_results_simp
/-- No operation writes argument 2. -/
theorem arg2_eq (V : Valuation τ sig (Elt F)) : after ops V (main_arg2 : DevRef τ sig) = V (main_arg2 : DevRef τ sig) := by
  after_results_simp
/-- No operation writes argument 3. -/
theorem arg3_eq (V : Valuation τ sig (Elt F)) : after ops V (main_arg3 : DevRef τ sig) = V (main_arg3 : DevRef τ sig) := by
  after_results_simp
/-- No operation writes argument 4. -/
theorem arg4_eq (V : Valuation τ sig (Elt F)) : after ops V (main_arg4 : DevRef τ sig) = V (main_arg4 : DevRef τ sig) := by
  after_results_simp
/-- No operation writes argument 5. -/
theorem arg5_eq (V : Valuation τ sig (Elt F)) : after ops V (main_arg5 : DevRef τ sig) = V (main_arg5 : DevRef τ sig) := by
  after_results_simp

/-- On every device, for any float values, from any memory with zero counters: every weakly fair execution of the
    program terminates with the result buffer at the composed term of the arguments' launch contents, and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = resultTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v27).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The plain array program computes the plain arrangement of the graph-attention layer.

  The program's composed term (one named piece per stage of the computation) is read entry by entry:
    * each of the three matrix products at an output entry is the sum, over the contraction's one coordinate,
      of the products of the operands' entries (the contraction index re-indexed by that coordinate);
    * a broadcast reads its operand at the kept coordinates, a reshape that drops a unit axis at the same
      row-major position;
    * the leaky ramp is a select on the bit of `0 ≤ s`; the edge mask is the bit of "the adjacency word,
      clipped at one, is positive", and clipping at one does not change whether a word is positive;
    * the row sum starts from zero, and zero plus a sum is the sum; the absolute value is `max a (-a)`;
    * the quotient is the extended reals' division.
  Entry by entry this is `Cert.Gat.refOut`, with nothing asked of the values (no finiteness): every step is an
  unfolding or a re-indexing.  The run's final form follows: the result buffer holds `refOut` of the six
  arguments' launch contents and the arguments are unchanged.
-/
import proofs.«177507_g11553462026822_cont_9to1c4b_334_26_alg».proof.Proof.RefRun
import proofs.«177507_g11553462026822_cont_9to1c4b_334_26_alg».proof.Proof.Spec
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem Idealize.ShloMosaic.StableHlo
open scoped BigOperators

/-! ## The three contractions: which entries a product reads -/

/-- The contraction index of this product is its one coordinate. -/
abbrev e1 : (dot_S8192x128_S128x128_S8192x128_1_0_0_1_n_n).contr.Idx ≃ Fin 128 := contrEquiv1 dot_S8192x128_S128x128_S8192x128_1_0_0_1_n_n 128 rfl rfl

/-- The left operand is read at (row, contraction coordinate). -/
theorem lhs1 (i : Fin 8192) (d : Fin 128) (k : Fin 128) : (dot_S8192x128_S128x128_S8192x128_1_0_0_1_n_n).lhsIdx (ix2 i d) (e1.symm k) = ix2 i k := by
  funext a
  match a with
  | ⟨0, _⟩ => refine Fin.ext ?_; simp [DotDims.lhsIdx, dot_S8192x128_S128x128_S8192x128_1_0_0_1_n_n] <;> rfl
  | ⟨1, _⟩ =>
    refine Fin.ext ?_
    rw [DotDims.lhsIdx_val_of_single _ rfl]
    exact contrEquiv1_symm_val _ 128 rfl rfl k

/-- The right operand is read at (contraction coordinate, column). -/
theorem rhs1 (i : Fin 8192) (d : Fin 128) (k : Fin 128) : (dot_S8192x128_S128x128_S8192x128_1_0_0_1_n_n).rhsIdx (ix2 i d) (e1.symm k) = ix2 k d := by
  funext a
  match a with
  | ⟨0, _⟩ =>
    refine Fin.ext ?_
    rw [DotDims.rhsIdx_val_of_single _ rfl]
    exact contrEquiv1_symm_val _ 128 rfl rfl k
  | ⟨1, _⟩ => refine Fin.ext ?_; simp [DotDims.rhsIdx, dot_S8192x128_S128x128_S8192x128_1_0_0_1_n_n] <;> rfl

/-- The contraction index of this product is its one coordinate. -/
abbrev e2 : (dot_S8192x128_S128x1_S8192x1_1_0_0_1_n_n).contr.Idx ≃ Fin 128 := contrEquiv1 dot_S8192x128_S128x1_S8192x1_1_0_0_1_n_n 128 rfl rfl

/-- The left operand is read at (row, contraction coordinate). -/
theorem lhs2 (i : Fin 8192) (u : Fin 1) (k : Fin 128) : (dot_S8192x128_S128x1_S8192x1_1_0_0_1_n_n).lhsIdx (ix2 i u) (e2.symm k) = ix2 i k := by
  funext a
  match a with
  | ⟨0, _⟩ => refine Fin.ext ?_; simp [DotDims.lhsIdx, dot_S8192x128_S128x1_S8192x1_1_0_0_1_n_n] <;> rfl
  | ⟨1, _⟩ =>
    refine Fin.ext ?_
    rw [DotDims.lhsIdx_val_of_single _ rfl]
    exact contrEquiv1_symm_val _ 128 rfl rfl k

/-- The right operand is read at (contraction coordinate, column). -/
theorem rhs2 (i : Fin 8192) (u : Fin 1) (k : Fin 128) : (dot_S8192x128_S128x1_S8192x1_1_0_0_1_n_n).rhsIdx (ix2 i u) (e2.symm k) = ix2 k u := by
  funext a
  match a with
  | ⟨0, _⟩ =>
    refine Fin.ext ?_
    rw [DotDims.rhsIdx_val_of_single _ rfl]
    exact contrEquiv1_symm_val _ 128 rfl rfl k
  | ⟨1, _⟩ => refine Fin.ext ?_; simp [DotDims.rhsIdx, dot_S8192x128_S128x1_S8192x1_1_0_0_1_n_n] <;> rfl

/-- The contraction index of this product is its one coordinate. -/
abbrev e3 : (dot_S8192x8192_S8192x128_S8192x128_1_0_0_1_n_n).contr.Idx ≃ Fin 8192 := contrEquiv1 dot_S8192x8192_S8192x128_S8192x128_1_0_0_1_n_n 8192 rfl rfl

/-- The left operand is read at (row, contraction coordinate). -/
theorem lhs3 (i : Fin 8192) (d : Fin 128) (k : Fin 8192) : (dot_S8192x8192_S8192x128_S8192x128_1_0_0_1_n_n).lhsIdx (ix2 i d) (e3.symm k) = ix2 i k := by
  funext a
  match a with
  | ⟨0, _⟩ => refine Fin.ext ?_; simp [DotDims.lhsIdx, dot_S8192x8192_S8192x128_S8192x128_1_0_0_1_n_n] <;> rfl
  | ⟨1, _⟩ =>
    refine Fin.ext ?_
    rw [DotDims.lhsIdx_val_of_single _ rfl]
    exact contrEquiv1_symm_val _ 8192 rfl rfl k

/-- The right operand is read at (contraction coordinate, column). -/
theorem rhs3 (i : Fin 8192) (d : Fin 128) (k : Fin 8192) : (dot_S8192x8192_S8192x128_S8192x128_1_0_0_1_n_n).rhsIdx (ix2 i d) (e3.symm k) = ix2 k d := by
  funext a
  match a with
  | ⟨0, _⟩ =>
    refine Fin.ext ?_
    rw [DotDims.rhsIdx_val_of_single _ rfl]
    exact contrEquiv1_symm_val _ 8192 rfl rfl k
  | ⟨1, _⟩ => refine Fin.ext ?_; simp [DotDims.rhsIdx, dot_S8192x8192_S8192x128_S8192x128_1_0_0_1_n_n] <;> rfl

/-! ## Each stage read at an index -/

/-- The projected features at (i, d): the sum over the 128 input features. -/
theorem tX_apply (h : FVec Ideal S8192x128 .f32) (W : FVec Ideal S128x128 .f32) (i : Fin 8192) (d : Fin 128) :
    tX (F := Ideal) h W (ix2 i d) = Cert.Gat.proj h W i d := by
  unfold tX Cert.Gat.proj
  refine (Ideal.dotGeneral_apply _ _ _ _ _ _).trans ?_
  rw [← Equiv.sum_comp e1.symm]
  refine Finset.sum_congr rfl fun k _ => ?_
  rw [lhs1, rhs1]

/-- A score vector at i: the row of `x` against the attention vector. -/
theorem tScore_apply (x : FVec Ideal S8192x128 .f32) (w : FVec Ideal S128x1 .f32) (i : Fin 8192) :
    tScore (F := Ideal) x w (ix1 i) = ∑ d : Fin 128, x (ix2 i d) * w (ix2 d (0 : Fin 1)) := by
  unfold tScore
  refine (shapeCast_apply _ _ (ix1 i) (ix2 i (0 : Fin 1)) ?_).trans ?_
  · rw [Shape.rowMajor_val_two, Shape.rowMajor_val_one]
    show i.val * 1 + 0 = i.val
    omega
  refine (Ideal.dotGeneral_apply _ _ _ _ _ _).trans ?_
  rw [← Equiv.sum_comp e2.symm]
  refine Finset.sum_congr rfl fun k _ => ?_
  rw [lhs2, rhs2]

/-- The score matrix at (i, j): source score of i plus target score of j. -/
theorem tS_apply (el er : FVec Ideal S8192 .f32) (i j : Fin 8192) :
    tS (F := Ideal) el er (ix2 i j) = el (ix1 i) + er (ix1 j) := by
  unfold tS
  rw [addf_apply]
  congr 1
  · refine (broadcastInDim_apply _ _ _ (ix2 i j) (ix2 i (0 : Fin 1)) (fun a => match a with | ⟨0, _⟩ => rfl | ⟨1, _⟩ => rfl)).trans ?_
    exact broadcastInDim_apply _ _ _ (ix2 i (0 : Fin 1)) (ix1 i) (fun a => match a with | ⟨0, _⟩ => rfl)
  · refine (broadcastInDim_apply _ _ _ (ix2 i j) (ix2 (0 : Fin 1) j) (fun a => match a with | ⟨0, _⟩ => rfl | ⟨1, _⟩ => rfl)).trans ?_
    exact broadcastInDim_apply _ _ _ (ix2 (0 : Fin 1) j) (ix1 j) (fun a => match a with | ⟨0, _⟩ => rfl)

/-- A Boolean as a one-bit word is the word one exactly when it is true. -/
theorem ofBool_one_iff (b : Bool) : BitVec.ofBool b = 1#1 ↔ b = true := by cases b <;> decide

/-- The host's exponential at an index is the extended reals' exponential of the entry. -/
theorem hostExp_apply {s : Shape} {φ : FTy} (x : FVec Ideal s φ) (q : s.Idx) : Host.exp x q = Ideal.exp (x q) := rfl

/-- The leaky ramp at an entry. -/
theorem tLeaky_apply (s : FVec Ideal S8192x8192 .f32) (q : S8192x8192.Idx) :
    tLeaky (F := Ideal) s q = Cert.Gat.leaky (s q) := by
  unfold tLeaky Cert.Gat.leaky Cert.Gat.slope
  rw [select_apply, cmpf_apply, mulf_apply, broadcastInDim_scalar_apply, broadcastInDim_scalar_apply, constant_apply,
    constant_apply, Ideal.cmpf_def, Ideal.ofBits_zero_f32]
  unfold Ideal.cmp Scalar.select
  by_cases h0 : 0 ≤ s q
  · rw [if_pos h0, if_pos]
    exact (ofBool_one_iff _).mpr (decide_eq_true h0)
  · rw [if_neg h0, if_neg]
    intro hc
    exact h0 (of_decide_eq_true ((ofBool_one_iff _).mp hc))

/-- Clipping a word at one does not change whether it is positive. -/
theorem slt_minsi_one (a : BitVec 32) : (0#32).slt (IntOp.minsi a 1#32) = (0#32).slt a := by
  unfold IntOp.minsi
  split
  · rfl
  · rename_i h
    have h1 : (0#32).slt 1#32 = true := by decide
    rw [h1]
    symm
    have e1 : (1#32 : BitVec 32).toInt = 1 := by decide
    have e0 : (0#32 : BitVec 32).toInt = 0 := by decide
    simp only [BitVec.slt, decide_eq_true_eq, Bool.not_eq_true, decide_eq_false_iff_not] at h ⊢
    omega

/-- The edge mask at an entry: the bit of "the adjacency word is positive". -/
theorem tMask_apply (adj : IVec S8192x8192 32) (q : S8192x8192.Idx) :
    tMask (F := Ideal) adj q = BitVec.ofBool ((0#32).slt (adj q)) := by
  unfold tMask
  show IntOp.cmpi .sgt (IntOp.minsi (adj q) (broadcastInDim S8192x8192 ![] bcast_S_S8192x8192 (constantI S_ 32 1#32) q))
      (broadcastInDim S8192x8192 ![] bcast_S_S8192x8192 (constantI S_ 32 0#32) q) = _
  rw [broadcastInDim_scalar_apply, broadcastInDim_scalar_apply, constantI_apply, constantI_apply]
  unfold IntOp.cmpi
  show BitVec.ofBool ((0#32).slt (IntOp.minsi (adj q) 1#32)) = _
  rw [slt_minsi_one]

/-- The unnormalised weight at (i, j). -/
theorem tA_apply (adj : IVec S8192x8192 32) (s : FVec Ideal S8192x8192 .f32) (i j : Fin 8192) :
    tA (F := Ideal) (tMask (F := Ideal) adj) s (ix2 i j)
      = if Cert.Gat.edge adj i j then Ideal.exp (Cert.Gat.leaky (s (ix2 i j))) else 0 := by
  unfold tA
  rw [select_apply, tMask_apply, broadcastInDim_scalar_apply, constant_apply, Ideal.ofBits_zero_f32]
  rw [hostExp_apply, tLeaky_apply]
  unfold Scalar.select
  by_cases he : Cert.Gat.edge adj i j
  · rw [if_pos he, if_pos]
    exact (ofBool_one_iff _).mpr he
  · rw [if_neg he, if_neg]
    intro hc
    exact he ((ofBool_one_iff _).mp hc)

/-- The floored row sum at row i. -/
theorem tDen_apply (a : FVec Ideal S8192x8192 .f32) (i : Fin 8192) :
    tDen (F := Ideal) a (ix2 i (0 : Fin 1))
      = max (∑ j : Fin 8192, max (a (ix2 i j)) (-(a (ix2 i j)))) Cert.Gat.tiny := by
  unfold tDen Cert.Gat.tiny
  rw [maximumf_apply]
  congr 1
  · refine (broadcastInDim_apply _ _ _ (ix2 i (0 : Fin 1)) (ix1 i) (fun a => match a with | ⟨0, _⟩ => rfl)).trans ?_
    rw [hostReduceAdd_apply, constant_apply, Ideal.ofBits_zero_f32]
    have hR : S8192x8192.Reduces [1] S8192 := by decide
    rw [Ideal.hostReduceAdd_single _ hR, zero_add]
    show ∑ k : Fin 8192, _ = _
    refine Finset.sum_congr rfl fun k _ => ?_
    have hk : hR.lift (ix1 i) k = ix2 i k := by
      funext c
      match c with
      | ⟨0, _⟩ => rfl
      | ⟨1, _⟩ => rfl
    rw [hk]
    show FloatOps.hostAbsf (a (ix2 i k)) = _
    rw [Ideal.hostAbsf_def, Ideal.absf_def]

/-- The output at (i, d): the normalised weights of row i against column d of `x`, plus the bias. -/
theorem tOut_apply (a : FVec Ideal S8192x8192 .f32) (x : FVec Ideal S8192x128 .f32) (b : FVec Ideal S128 .f32) (i : Fin 8192) (d : Fin 128) :
    tOut (F := Ideal) a x b (ix2 i d)
      = (∑ j : Fin 8192, Ideal.div (a (ix2 i j)) (tDen (F := Ideal) a (ix2 i (0 : Fin 1))) * x (ix2 j d)) + b (ix1 d) := by
  unfold tOut
  rw [addf_apply]
  congr 1
  · refine (Ideal.dotGeneral_apply _ _ _ _ _ _).trans ?_
    rw [← Equiv.sum_comp e3.symm]
    refine Finset.sum_congr rfl fun k _ => ?_
    rw [lhs3, rhs3, hostDivf_apply]
    congr 2
    exact broadcastInDim_apply _ _ _ (ix2 i k) (ix2 i (0 : Fin 1)) (fun a => match a with | ⟨0, _⟩ => rfl | ⟨1, _⟩ => rfl)
  · refine (broadcastInDim_apply _ _ _ (ix2 i d) (ix2 (0 : Fin 1) d) (fun a => match a with | ⟨0, _⟩ => rfl | ⟨1, _⟩ => rfl)).trans ?_
    exact broadcastInDim_apply _ _ _ (ix2 (0 : Fin 1) d) (ix1 d) (fun a => match a with | ⟨0, _⟩ => rfl)

/-! ## The whole program is the plain arrangement -/

/-- The composed term's unnormalised weight at (i, j) is the plain arrangement's. -/
theorem weights_eq (h : FVec Ideal S8192x128 .f32) (adj : IVec S8192x8192 32) (W : FVec Ideal S128x128 .f32) (Wl Wr : FVec Ideal S128x1 .f32) (i j : Fin 8192) :
    (tA (F := Ideal) (tMask (F := Ideal) adj)
        (tS (F := Ideal) (tScore (F := Ideal) (tX (F := Ideal) h W) Wl) (tScore (F := Ideal) (tX (F := Ideal) h W) Wr))) (ix2 i j) = Cert.Gat.refW h adj W Wl Wr i j := by
  rw [tA_apply, tS_apply, tScore_apply, tScore_apply]
  unfold Cert.Gat.refW Cert.Gat.el Cert.Gat.er
  simp only [tX_apply]

/-- The plain arrangement's output at (i, d), its index written by coordinates. -/
theorem refOut_ix2 (h : FVec Ideal S8192x128 .f32) (adj : IVec S8192x8192 32) (W : FVec Ideal S128x128 .f32) (Wl Wr : FVec Ideal S128x1 .f32) (b : FVec Ideal S128 .f32) (i : Fin 8192) (d : Fin 128) :
    Cert.Gat.refOut h adj W Wl Wr b (ix2 i d)
      = (∑ j : Fin 8192, Ideal.div (Cert.Gat.refW h adj W Wl Wr i j) (Cert.Gat.refDen h adj W Wl Wr i) * Cert.Gat.proj h W j d)
          + b (ix1 d) := rfl

/-- The program's composed term IS the plain arrangement, entry by entry: each operation read at the entry's
    coordinates, the contractions re-indexed by their one coordinate, the row sum started from zero. -/
theorem resultTerm_eq (h : FVec Ideal S8192x128 .f32) (adj : IVec S8192x8192 32) (W : FVec Ideal S128x128 .f32) (Wl Wr : FVec Ideal S128x1 .f32) (b : FVec Ideal S128 .f32) :
    resultTerm (F := Ideal) h adj W Wl Wr b = Cert.Gat.refOut h adj W Wl Wr b := by
  funext q
  obtain ⟨i, d, rfl⟩ : ∃ (i : Fin 8192) (d : Fin 128), q = ix2 i d := ⟨q 0, q 1, eq_ix2 q⟩
  unfold resultTerm
  rw [tOut_apply, tDen_apply, refOut_ix2]
  unfold Cert.Gat.refDen
  simp only [weights_eq, tX_apply]

/-! ## The run, in its final form -/

/-- On every device, from any memory with zero counters: every weakly fair execution of the plain array program
    terminates with its result buffer at the plain arrangement of the six arguments' launch contents, and the
    arguments unchanged. -/
theorem run_refOut (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v27)
            = Cert.Gat.refOut (m ((c.tc : Thread nD τ).loc main_arg0))
                (m ((c.tc : Thread nD τ).loc main_arg1))
                (m ((c.tc : Thread nD τ).loc main_arg2))
                (m ((c.tc : Thread nD τ).loc main_arg3))
                (m ((c.tc : Thread nD τ).loc main_arg4))
                (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run _ _ _).mono (fun _ hr c => ⟨(hr c).1.trans (resultTerm_eq _ _ _ _ _ _), (hr c).2⟩) (RefRun.run (F := Ideal) m ρ)

end Cert.ReferenceIdeal.RefValue

end
-- ==== Proof.Algebra1.lean ====
/-
  Three constants and a few general facts about the extended reals, used to compare the two arrangements of the
  graph-attention layer.

  * the slope of the leaky ramp is a real number strictly between 0 and 1, and the floor under the row sum is a
    positive real number, and the word 0x7F800000 is +∞ (the only place where binary32 words are read);
  * the coercion ℝ → EReal commutes with finite sums and with max;
  * a finite sum of reals is real; a product of two reals is real;
  * a sum over 8192 = 4096 + 4096 indices is the sum over the first half plus the sum over the second half.
-/
import Idealize.ShloMosaic.PureOps.Ideal
import proofs.«177507_g11553462026822_cont_9to1c4b_334_26_alg».proof.Proof.Spec

noncomputable section

open Idealize.ShloMosaic Idealize.ShloMosaic.ValueIdx
open scoped BigOperators

namespace Cert.Gat

/-! ### The two constants -/

/-- The slope word denotes 13421773 · 2⁻²⁶ (sign 0, exponent field 124, fraction field 5033165). -/
theorem slope_val : slope = (((13421773 : ℝ) * (2 : ℝ) ^ (-26 : Int) : ℝ) : EReal) := by
  unfold slope
  simp [Ideal.ofBits, Ideal.ieee, -EReal.coe_mul]

/-- The floor word denotes 9223372 · 2⁻⁶³ (sign 0, exponent field 87, fraction field 834764). -/
theorem tiny_val : tiny = (((9223372 : ℝ) * (2 : ℝ) ^ (-63 : Int) : ℝ) : EReal) := by
  unfold tiny
  simp [Ideal.ofBits, Ideal.ieee, -EReal.coe_mul]

/-- The word 0x7F800000 denotes +∞. -/
theorem inf_val : Ideal.ofBits .f32 0x7F800000#32 = ⊤ := by
  simp [Ideal.ofBits, Ideal.ieee]

/-- The slope is a real number strictly between 0 and 1. -/
theorem slope_spec : ∃ c : ℝ, slope = (c : EReal) ∧ 0 < c ∧ c < 1 := by
  refine ⟨(13421773 : ℝ) * (2 : ℝ) ^ (-26 : Int), slope_val, by positivity, ?_⟩
  norm_num

/-- The floor is a positive real number. -/
theorem tiny_spec : ∃ ε : ℝ, tiny = (ε : EReal) ∧ 0 < ε :=
  ⟨(9223372 : ℝ) * (2 : ℝ) ^ (-63 : Int), tiny_val, by positivity⟩

/-! ### The coercion from the reals -/

/-- The coercion commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion commutes with max. -/
theorem coe_max (x y : ℝ) : ((max x y : ℝ) : EReal) = max (x : EReal) (y : EReal) := by
  rcases le_total x y with hxy | hxy
  · rw [max_eq_right hxy, max_eq_right (EReal.coe_le_coe_iff.2 hxy)]
  · rw [max_eq_left hxy, max_eq_left (EReal.coe_le_coe_iff.2 hxy)]

/-- A finite sum of real numbers is a real number. -/
theorem exists_real_sum {ι : Type*} (s : Finset ι) (f : ι → EReal)
    (hf : ∀ i, ∃ r : ℝ, f i = (r : EReal)) : ∃ r : ℝ, ∑ i ∈ s, f i = (r : EReal) := by
  choose g hg using hf
  exact ⟨∑ i ∈ s, g i, by rw [coe_sum]; exact Finset.sum_congr rfl (fun i _ => hg i)⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-! ### The two halves of the neighbours -/

/-- A sum over the 8192 neighbours is the sum over the first 4096 plus the sum over the last 4096. -/
theorem sum_halves {M : Type*} [AddCommMonoid M] (f : Fin 8192 → M) :
    (∑ j : Fin 4096, f (lo j)) + (∑ j : Fin 4096, f (hi j)) = ∑ j : Fin 8192, f j :=
  (Fin.sum_univ_add (a := 4096) (b := 4096) f).symm

end Cert.Gat

end
-- ==== Proof.Algebra.lean ====
/-
  The two arrangements of the graph-attention layer agree when every input entry is a real number.

  With real entries the projected features, the two scores and therefore every attention weight are real.
  * The weights agree: for real scores a, b and the slope c with 0 < c < 1,
      exp (leaky (a + b)) = max (exp a · exp b) (exp (c a) · exp (c b)),
    because exp a · exp b = exp (a + b), exp (c a) · exp (c b) = exp (c (a + b)), exp is monotone, and
    c (a + b) ≤ a + b exactly when 0 ≤ a + b.  The common value is a non-negative real.
  * The row sums agree: a non-negative weight is its own absolute value, and the sum over the 8192 neighbours is
    the sum over the two halves.  The floored row sum M is a positive real.
  * The outputs agree: dividing by the positive real M is multiplying by 1/M, and
      Σ_j (w_j · (1/M)) · x_j = (Σ_j w_j · x_j) · (1/M).
-/
import proofs.«177507_g11553462026822_cont_9to1c4b_334_26_alg».proof.Proof.Algebra1

noncomputable section

open Idealize.ShloMosaic Idealize.ShloMosaic.ValueIdx
open scoped BigOperators

namespace Cert.Gat

/-! ### The weight of one edge, for real scores -/

/-- For real scores the exponential of the leaky ramp is the larger of the two products of exponentials, and
    it is a non-negative real. -/
theorem exp_leaky_real (a b : ℝ) :
    ∃ w : ℝ, 0 ≤ w ∧ Ideal.exp (leaky ((a : EReal) + (b : EReal))) = (w : EReal)
      ∧ max (Ideal.exp (a : EReal) * Ideal.exp (b : EReal))
            (Ideal.exp (slope * (a : EReal)) * Ideal.exp (slope * (b : EReal))) = (w : EReal) := by
  obtain ⟨c, hc, hc0, hc1⟩ := slope_spec
  have hker : max (Ideal.exp (a : EReal) * Ideal.exp (b : EReal))
      (Ideal.exp (slope * (a : EReal)) * Ideal.exp (slope * (b : EReal)))
      = ((max (Real.exp (a + b)) (Real.exp (c * (a + b))) : ℝ) : EReal) := by
    rw [hc, ← EReal.coe_mul, ← EReal.coe_mul, Ideal.exp_coe, Ideal.exp_coe, Ideal.exp_coe, Ideal.exp_coe,
      ← EReal.coe_mul, ← EReal.coe_mul, ← Real.exp_add, ← Real.exp_add, ← mul_add, coe_max]
  by_cases hs : 0 ≤ a + b
  · refine ⟨Real.exp (a + b), (Real.exp_pos _).le, ?_, ?_⟩
    · unfold leaky
      rw [← EReal.coe_add, if_pos (EReal.coe_nonneg.2 hs), Ideal.exp_coe]
    · rw [hker, max_eq_left]
      exact Real.exp_le_exp.2 (by nlinarith)
  · have hs' : a + b < 0 := not_le.1 hs
    refine ⟨Real.exp (c * (a + b)), (Real.exp_pos _).le, ?_, ?_⟩
    · unfold leaky
      rw [← EReal.coe_add, if_neg (fun h0 => hs (EReal.coe_nonneg.1 h0)), hc, ← EReal.coe_mul, Ideal.exp_coe]
    · rw [hker, max_eq_right]
      exact Real.exp_le_exp.2 (by nlinarith)

section
variable (h : SNxD.Idx → EReal) (adj : SNxN.Idx → BitVec 32) (W : SDxD.Idx → EReal)
  (Wl Wr : SDx1.Idx → EReal) (b : SD.Idx → EReal)

/-! ### Real inputs give real intermediate values -/

theorem proj_real (hh : AllReal h) (hW : AllReal W) (i : Fin 8192) (d : Fin 128) :
    ∃ r : ℝ, proj h W i d = (r : EReal) := by
  unfold proj
  exact exists_real_sum _ _ (fun k => exists_real_mul (hh _) (hW _))

theorem el_real (hh : AllReal h) (hW : AllReal W) (hWl : AllReal Wl) (i : Fin 8192) :
    ∃ r : ℝ, el h W Wl i = (r : EReal) := by
  unfold el
  exact exists_real_sum _ _ (fun d => exists_real_mul (proj_real h W hh hW i d) (hWl _))

theorem er_real (hh : AllReal h) (hW : AllReal W) (hWr : AllReal Wr) (j : Fin 8192) :
    ∃ r : ℝ, er h W Wr j = (r : EReal) := by
  unfold er
  exact exists_real_sum _ _ (fun d => exists_real_mul (proj_real h W hh hW j d) (hWr _))

/-- The two arrangements give the same attention weight, a non-negative real. -/
theorem weight_real (hh : AllReal h) (hW : AllReal W) (hWl : AllReal Wl) (hWr : AllReal Wr)
    (i j : Fin 8192) :
    ∃ w : ℝ, 0 ≤ w ∧ refW h adj W Wl Wr i j = (w : EReal) ∧ kerW h adj W Wl Wr i j = (w : EReal) := by
  obtain ⟨a, ha⟩ := el_real h W Wl hh hW hWl i
  obtain ⟨c, hc⟩ := er_real h W Wr hh hW hWr j
  unfold refW kerW
  rw [ha, hc]
  by_cases he : edge adj i j
  · rw [if_pos he, if_pos he]
    exact exp_leaky_real a c
  · rw [if_neg he, if_neg he]
    exact ⟨0, le_rfl, rfl, rfl⟩

/-- The two arrangements give the same attention weight. -/
theorem kerW_eq_refW (hh : AllReal h) (hW : AllReal W) (hWl : AllReal Wl) (hWr : AllReal Wr)
    (i j : Fin 8192) : kerW h adj W Wl Wr i j = refW h adj W Wl Wr i j := by
  obtain ⟨w, -, h1, h2⟩ := weight_real h adj W Wl Wr hh hW hWl hWr i j
  rw [h1, h2]

/-! ### One output entry -/

/-- One entry of the output, before the bias: the contracted numerator over the floored contracted row sum is
    the contraction of the normalised weights. -/
theorem entry_eq (hh : AllReal h) (hW : AllReal W) (hWl : AllReal Wl) (hWr : AllReal Wr)
    (i : Fin 8192) (d : Fin 128) :
    Ideal.div (kerNum h adj W Wl Wr i d) (max (kerDen h adj W Wl Wr i) tiny)
      = ∑ j : Fin 8192, Ideal.div (refW h adj W Wl Wr i j) (refDen h adj W Wl Wr i) * proj h W j d := by
  -- real witnesses for the weights of row i and for column d of the projected features
  choose w hw0 hrw hkw using fun j => weight_real h adj W Wl Wr hh hW hWl hWr i j
  choose x hx using fun j => proj_real h W hh hW j d
  obtain ⟨ε, hε, hε0⟩ := tiny_spec
  -- the floored row sum is a positive real
  have hM : 0 < max (∑ j, w j) ε := lt_max_of_lt_right hε0
  have hden : refDen h adj W Wl Wr i = ((max (∑ j, w j) ε : ℝ) : EReal) := by
    have habs : ∀ j, max (refW h adj W Wl Wr i j) (-(refW h adj W Wl Wr i j)) = (w j : EReal) := by
      intro j
      rw [hrw j, ← EReal.coe_neg]
      exact max_eq_left (EReal.coe_le_coe_iff.2 (by linarith [hw0 j]))
    unfold refDen
    rw [Finset.sum_congr rfl (fun j _ => habs j), ← coe_sum, hε, ← coe_max]
  have hkden : max (kerDen h adj W Wl Wr i) tiny = ((max (∑ j, w j) ε : ℝ) : EReal) := by
    have e : kerDen h adj W Wl Wr i = ∑ j : Fin 8192, kerW h adj W Wl Wr i j :=
      sum_halves (fun j => kerW h adj W Wl Wr i j)
    rw [e, Finset.sum_congr rfl (fun j _ => hkw j), ← coe_sum, hε, ← coe_max]
  have hnum : kerNum h adj W Wl Wr i d = ((∑ j, w j * x j : ℝ) : EReal) := by
    have e : kerNum h adj W Wl Wr i d = ∑ j : Fin 8192, kerW h adj W Wl Wr i j * proj h W j d :=
      sum_halves (fun j => kerW h adj W Wl Wr i j * proj h W j d)
    rw [e, coe_sum]
    refine Finset.sum_congr rfl (fun j _ => ?_)
    rw [hkw j, hx j, EReal.coe_mul]
  have hterm : ∀ j, Ideal.div (refW h adj W Wl Wr i j) ((max (∑ j, w j) ε : ℝ) : EReal) * proj h W j d
      = ((w j * (1 / max (∑ j, w j) ε) * x j : ℝ) : EReal) := by
    intro j
    rw [hrw j, hx j, Ideal.div_coe hM.ne', ← EReal.coe_mul, ← EReal.coe_mul]
  rw [hnum, hkden, hden, Ideal.div_coe hM.ne', ← EReal.coe_mul,
    Finset.sum_congr rfl (fun j _ => hterm j), ← coe_sum]
  refine congrArg _ ?_
  rw [Finset.sum_mul]
  exact Finset.sum_congr rfl (fun j _ => by ring)

/-- The fused arrangement and the plain arrangement compute the same array when every input entry is real. -/
theorem kerOut_eq_refOut (hh : AllReal h) (hW : AllReal W) (hWl : AllReal Wl) (hWr : AllReal Wr)
    (hb : AllReal b) : kerOut h adj W Wl Wr b = refOut h adj W Wl Wr b := by
  funext q
  unfold kerOut refOut
  exact congrArg (· + b (ix1 (q 1))) (entry_eq h adj W Wl Wr hh hW hWl hWr (q 0) (q 1))

end

end Cert.Gat

end
-- ==== Proof.Finite.lean ====
/-
  The printed precondition says that every entry of the five float arrays is finite; here it is read back as
  "every entry is a real number".

  The precondition is the conjunction of five tests, one per float array, each of the form
  "every entry x has |x| < +∞", where |x| = max x (-x) and +∞ is the binary32 word 0x7F800000.  An extended real
  whose absolute value is below +∞ is neither +∞ nor -∞ (the absolute value of either is +∞), hence is a real number.
-/
import Idealize.ShloMosaic.Lib.ReduceAll
import proofs.«177507_g11553462026822_cont_9to1c4b_334_26_alg».proof.Proof.Spec
import proofs.«177507_g11553462026822_cont_9to1c4b_334_26_alg».proof.Proof.Algebra1
import proofs.«177507_g11553462026822_cont_9to1c4b_334_26_alg».proof.Pre_finite_inputs
import proofs.«177507_g11553462026822_cont_9to1c4b_334_26_alg».proof.Proof.Gen.Pre_finite_inputs

noncomputable section

open Idealize.ShloMosaic Idealize.ShloMosaic.ValueIdx

namespace Cert.Gat

open Cert.Pre_finite_inputs (S_ S8192x128 S8192x8192 S128x128 S128x1 S128)

/-- The shape of a scalar has exactly one index. -/
instance : Subsingleton S_.Idx := ⟨fun _ _ => funext fun d => d.elim0⟩

/-- An extended real whose absolute value is below +∞ is a real number. -/
theorem real_of_abs_lt_inf (x : EReal)
    (hx : Ideal.cmp .olt (max x (-x)) (Ideal.ofBits .f32 0x7F800000#32) = 1#1) : ∃ r : ℝ, x = (r : EReal) := by
  rw [inf_val] at hx
  induction x using EReal.rec with
  | bot => simp [Ideal.cmp] at hx
  | coe r => exact ⟨r, rfl⟩
  | top => simp [Ideal.cmp] at hx

/-- One test of the precondition: if "every entry has |x| < +∞" holds of an array, every entry of it is real. -/
theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf .olt (Host.absf x) (broadcastInDim S ![] hb (constant (F := Ideal) S_ .f32 0x7F800000#32)))
        (constantI S_ 1 1#1) hr hu ix0 = 1#1) : AllReal x := by
  intro i
  exact real_of_abs_lt_inf (x i) (Host.reduce_andi_all _ _ hr hu ix0 e i)

/-- The precondition read back: every entry of the five float arrays is a real number. -/
theorem allReal_of_pre [Cert.Pre_finite_inputs.Facts]
    (a0 : FVec Ideal Cert.Pre_finite_inputs.S8192x128 .f32) (a1 : IVec Cert.Pre_finite_inputs.S8192x8192 32)
    (a2 : FVec Ideal Cert.Pre_finite_inputs.S128x128 .f32) (a3 a4 : FVec Ideal Cert.Pre_finite_inputs.S128x1 .f32)
    (a5 : FVec Ideal Cert.Pre_finite_inputs.S128 .f32)
    (hpre : Cert.Pre_finite_inputs.fn (F := Ideal) a0 a1 a2 a3 a4 a5 = fun _ => 1#1) :
    AllReal a0 ∧ AllReal a2 ∧ AllReal a3 ∧ AllReal a4 ∧ AllReal a5 := by
  have e := congrFun hpre ix0
  dsimp only [Cert.Pre_finite_inputs.fn, Cert.Pre_finite_inputs.fn_part1] at e
  simp only [andi] at e
  obtain ⟨h1234, h5⟩ := IntOp.andi_eq_one.1 e
  obtain ⟨h123, h4⟩ := IntOp.andi_eq_one.1 h1234
  obtain ⟨h12, h3⟩ := IntOp.andi_eq_one.1 h123
  obtain ⟨h1, h2⟩ := IntOp.andi_eq_one.1 h12
  exact ⟨allReal_of_all a0 _ _ _ h1, allReal_of_all a2 _ _ _ h2, allReal_of_all a3 _ _ _ h3,
    allReal_of_all a4 _ _ _ h4, allReal_of_all a5 _ _ _ h5⟩

end Cert.Gat

end
-- ==== Proof.lean ====
/-
  A fused graph-attention layer against its plain array form, over the extended reals.

  Both programs take node features h (8192 × 128), an integer adjacency matrix (8192 × 8192), a projection W, two
  attention vectors and a bias, and return, for every node i, the bias plus the attention-weighted mean of its
  neighbours' projected features x = h W: the weight of neighbour j is exp (leaky (el i + er j)) on an edge and 0
  elsewhere (el, er the source and target scores x·Wl, x·Wr), divided by the row's sum of weights floored at a
  tiny constant.

  The plain form normalises every weight and then contracts with x. The fused form, a pipelined region of 33 grid
  points, projects once (the first point stores x beside a column of ones, and the four per-node exponentials
  exp el, exp (c·el), exp er, exp (c·er), in scratch arrays it keeps), and at each later point builds a block of 256
  rows of weights as the larger of exp el · exp er and exp (c·el) · exp (c·er), contracts it with [x | 1] in two
  halves of the neighbours — so that the row sum comes out of the same product as the numerator — and divides once
  per output entry. The adjacency matrix reaches the region through two windows, one per half of its columns.

  The two arrangements are one function of finite inputs: exp is monotone and s ≥ c·s exactly when s ≥ 0 (0 < c < 1),
  so exp (leaky s) is the larger of exp s and exp (c·s); exp turns the sum of the scores into the product; the
  weights are non-negative reals, so the floored row sum is a positive real, and dividing each term of a finite sum
  by it is dividing the sum. Finiteness of the inputs is what makes every score a real number; it is used for
  nothing else. Each program's frame (it terminates, nothing faults, the arguments end as launched) is read off
  its run.
-/
import proofs.«177507_g11553462026822_cont_9to1c4b_334_26_alg».proof.Defs
import proofs.«177507_g11553462026822_cont_9to1c4b_334_26_alg».proof.Proof.Gen.Kernel
import proofs.«177507_g11553462026822_cont_9to1c4b_334_26_alg».proof.Proof.Gen.KernelIdeal
import proofs.«177507_g11553462026822_cont_9to1c4b_334_26_alg».proof.Proof.Gen.ReferenceIdeal
import proofs.«177507_g11553462026822_cont_9to1c4b_334_26_alg».proof.Proof.Gen.Pre_finite_inputs
import proofs.«177507_g11553462026822_cont_9to1c4b_334_26_alg».proof.Proof.KBLaunch
import proofs.«177507_g11553462026822_cont_9to1c4b_334_26_alg».proof.Proof.KILaunch
import proofs.«177507_g11553462026822_cont_9to1c4b_334_26_alg».proof.Proof.KIOut
import proofs.«177507_g11553462026822_cont_9to1c4b_334_26_alg».proof.Proof.RefValue
import proofs.«177507_g11553462026822_cont_9to1c4b_334_26_alg».proof.Proof.Algebra
import proofs.«177507_g11553462026822_cont_9to1c4b_334_26_alg».proof.Proof.Finite
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- The plain array program: its run with the result dropped. -/
theorem frame_ri : Cert.frame_ReferenceIdeal := fun m ρ _ =>
  (θ_run Cert.ReferenceIdeal.defs _ _).mono (fun _ h c => (h c).2) (Cert.ReferenceIdeal.RefValue.run_refOut m ρ)

/-- Nothing of the fused program was rewritten for its reading over the extended reals. -/
theorem preserves : Cert.preserves_Kernel_KernelIdeal := trivial

open Cert.KernelIdeal Cert.KernelIdeal.Fr in
/-- The fused program's run with its result named: the output array ends at the fused arrangement of the arguments
    (each block of 256 rows written back by its grid point), the arguments as launched. -/
theorem run_ker (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v0) = Cert.Gat.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨
      ((h c).1 7).trans (Cert.KernelIdeal.Val.final7 m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main (F := Ideal) m ρ)

/-- From memories agreeing on the arguments both programs run, the fused one to its arrangement of the arguments and
    the plain one to its own: one function of finite arguments. -/
theorem algebraic : Cert.algebraic_KernelIdeal_ReferenceIdeal := by
  intro m ρ m' ρ' hpre hagree
  refine ⟨fun c => Cert.Gat.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), run_ker m ρ, ?_⟩
  refine (θ_run Cert.ReferenceIdeal.defs _ _).mono (fun _ h c => ⟨(h c).1.trans ?_, (h c).2⟩)
    (Cert.ReferenceIdeal.RefValue.run_refOut m' ρ')
  rw [(hagree c).1, (hagree c).2.1, (hagree c).2.2.1, (hagree c).2.2.2.1, (hagree c).2.2.2.2.1, (hagree c).2.2.2.2.2]
  obtain ⟨h0, h2, h3, h4, h5⟩ := Cert.Gat.allReal_of_pre _ _ _ _ _ _ (hpre c)
  exact (Cert.Gat.kerOut_eq_refOut _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
